-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : FVec F S64x1024 .f32) (main_arg1 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S64x1024 : Shape := ⟨2, ![64, 1024]⟩
abbrev S64x1 : Shape := ⟨2, ![64, 1]⟩
abbrev S32x128 : Shape := ⟨2, ![32, 128]⟩
abbrev S32x1 : Shape := ⟨2, ![32, 1]⟩
abbrev S32x1x128 : Shape := ⟨3, ![32, 1, 128]⟩
abbrev S32x128x1 : Shape := ⟨3, ![32, 128, 1]⟩
abbrev S32x128x128 : Shape := ⟨3, ![32, 128, 128]⟩
abbrev S32 : Shape := ⟨1, ![32]⟩
abbrev S_ : Shape := ⟨0, ![]⟩

abbrev nBuf : Space → Nat
  | .hbm => 7
  | .vmem => 10
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x1, .f32⟩
  | .local _ .vmem, ⟨9, _⟩ => ⟨S32x1, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  inb_S32x1_S32x1_0_0 : ∀ a, (![0, 0] : Fin 2 → Nat) a + S32x1.size a ≤ S32x1.size a
  h_S32x1 : 0 < S32x1.numel
  inb_S32x128_S32x128_0_0 : ∀ a, (![0, 0] : Fin 2 → Nat) a + S32x128.size a ≤ S32x128.size a
  h_S32x128 : 0 < S32x128.numel
  natLt_1_32 : 1 < 32
  shapeCasts_S32x128_S32x1x128 : S32x128.ShapeCasts S32x1x128
  shapeCasts_S32x128_S32x128x1 : S32x128.ShapeCasts S32x128x1
  broadcasts_S32x1x128_S32x128x128 : S32x1x128.Broadcasts S32x128x128
  broadcasts_S32x128x1_S32x128x128 : S32x128x1.Broadcasts S32x128x128
  reduces_S32x128x128_S32x128 : S32x128x128.Reduces [2] S32x128
  reduces_S32x128_S32 : S32x128.Reduces [1] S32
  shapeCasts_S32_S32x1 : S32.ShapeCasts S32x1
  shapeCasts_S32x1_S32x1 : S32x1.ShapeCasts S32x1
  reducesTo_S64x1_S_d0_1 : S64x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S64x1024.size a
  hwx0_0 : ∀ i : grid0.Coords, EltTy.bits .f32 = 32 ∨ (Rect.block (s := S64x1024) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S64x1024.size a
  hwx0_1 : ∀ i : grid0.Coords, EltTy.bits .f32 = 32 ∨ (Rect.block (s := S64x1024) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x1024.size a
  hwx0_2 : ∀ i : grid0.Coords, EltTy.bits .f32 = 32 ∨ (Rect.block (s := S64x1024) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x1024.size a
  hwx0_3 : ∀ i : grid0.Coords, EltTy.bits .f32 = 32 ∨ (Rect.block (s := S64x1024) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)

variable [Facts₀]

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024 : Shape := ⟨2, ![64, 1024]⟩
abbrev S_ : Shape := ⟨0, ![]⟩
abbrev S64x1x1024 : Shape := ⟨3, ![64, 1, 1024]⟩
abbrev S64x1024x1 : Shape := ⟨3, ![64, 1024, 1]⟩
abbrev S64x1024x1024 : Shape := ⟨3, ![64, 1024, 1024]⟩
abbrev S64 : Shape := ⟨1, ![64]⟩

abbrev nBuf : Space → Nat
  | .hbm => 29
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S_, .f32⟩
  | .hbm, ⟨3, _⟩ => ⟨S64x1024, .f32⟩
  | .hbm, ⟨4, _⟩ => ⟨S64x1024, .i1⟩
  | .hbm, ⟨5, _⟩ => ⟨S64x1024, .i1⟩
  | .hbm, ⟨6, _⟩ => ⟨S64x1x1024, .f32⟩
  | .hbm, ⟨7, _⟩ => ⟨S64x1024x1, .f32⟩
  | .hbm, ⟨8, _⟩ => ⟨S64x1024x1024, .f32⟩
  | .hbm, ⟨9, _⟩ => ⟨S64x1024x1024, .f32⟩
  | .hbm, ⟨10, _⟩ => ⟨S64x1024x1024, .f32⟩
  | .hbm, ⟨11, _⟩ => ⟨S64x1024x1, .i1⟩
  | .hbm, ⟨12, _⟩ => ⟨S64x1x1024, .i1⟩
  | .hbm, ⟨13, _⟩ => ⟨S64x1024x1024, .i1⟩
  | .hbm, ⟨14, _⟩ => ⟨S64x1024x1024, .i1⟩
  | .hbm, ⟨15, _⟩ => ⟨S64x1024x1024, .i1⟩
  | .hbm, ⟨16, _⟩ => ⟨S_, .f32⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S_, .f32⟩
  | .hbm, ⟨21, _⟩ => ⟨S64x1024x1024, .f32⟩
  | .hbm, ⟨22, _⟩ => ⟨S64x1024x1024, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S64x1024_S64x1x1024_0_2 : S64x1024.BroadcastsInDim S64x1x1024 (![0, 2] : Fin 2 → Fin S64x1x1024.rank)
  bcast_S64x1024_S64x1024x1_0_1 : S64x1024.BroadcastsInDim S64x1024x1 (![0, 1] : Fin 2 → Fin S64x1024x1.rank)
  bcast_S64x1x1024_S64x1024x1024_0_1_2 : S64x1x1024.BroadcastsInDim S64x1024x1024 (![0, 1, 2] : Fin 3 → Fin S64x1024x1024.rank)
  bcast_S64x1024x1_S64x1024x1024_0_1_2 : S64x1024x1.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64_d1_2 : S64x1024x1024.ReducesTo [1, 2] S64
  h_S_ : 0 < S_.numel
  reducesTo_S64_S_d0 : S64.ReducesTo [0] S_

variable [Facts₀]

class Facts : Prop extends Facts₀ where

variable [Facts]
-- ==== Proof.TileRunsBits.lean ====
/-
  The kernel body on one tile, as a Hoare triple, in its two control cases.

  A grid point (q, j, k) handles rows 32q … 32q+31 and the 128 × 128 tile of column pairs (j-block, k-block). The body
  first zeroes the 32 × 1 accumulator when the tile is the first of its row block (j = 0 and k = 0), then loads the four
  input tiles, and stores the accumulator plus the tile's row sums. Here: the branch condition in closed form over the
  128 points, and for each case the run of the body from whole staging buffers — the inputs come back as they were and
  the accumulator's buffer ends as a list of stores over whatever it held, found by running the body.
-/
import proofs.«122645_j13649406067127_2_alg».proof.Proof.Gen.Kernel.Launch
import proofs.«122645_j13649406067127_2_alg».proof.Proof.Gen.Kernel.Skeleton
import proofs.«122645_j13649406067127_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition, from the grid coordinates: both tile coordinates are zero. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The points run row block by row block, 64 tiles each: a tile is the first of its row block exactly at the multiples of 64. -/
theorem isFirst_iff : ∀ t : Fin cfg0.N, isFirst (grid0.coords t) ↔ t.val % 64 = 0 :=
  (by decide +kernel : ∀ t : Fin grid0.N, isFirst (grid0.coords t) ↔ t.val % 64 = 0)

set_option maxHeartbeats 1000000 in
/-- The body on a FIRST tile: the accumulator's buffer may hold anything; it ends as the stores `L` over that. -/
noncomputable def runFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) :
    { L : List (View.Piece (Elt F) S32x1 .f32) //
      ∀ (E : Set ℕ) (K : PUnit → sProp 𝕄),
        iprop(owns (c : Thread nD τ) a3 fullShare x0 ∗ owns (c : Thread nD τ) a4 fullShare x1
            ∗ owns (c : Thread nD τ) a5 fullShare x2 ∗ owns (c : Thread nD τ) a6 fullShare x3
            ∗ (∃ d, owns (c : Thread nD τ) a7 fullShare d)
            ∗ (iprop(owns (c : Thread nD τ) a3 fullShare x0 ∗ owns (c : Thread nD τ) a4 fullShare x1
                ∗ owns (c : Thread nD τ) a5 fullShare x2 ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__loss_kernel i a3 h3 a4 h4 a5 h5 a6 h6 a7 h7) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h3.eq_unread hf0; obtain rfl := h4.eq_unread hf1
    obtain rfl := h5.eq_unread hf2; obtain rfl := h6.eq_unread hf3
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

set_option maxHeartbeats 1000000 in
/-- The body on a LATER tile: the accumulator's buffer holds `acc`; it ends as the stores `L` over that. -/
noncomputable def runLater (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) :
    { L : List (View.Piece (Elt F) S32x1 .f32) //
      ∀ (E : Set ℕ) (K : PUnit → sProp 𝕄),
        iprop(owns (c : Thread nD τ) a3 fullShare x0 ∗ owns (c : Thread nD τ) a4 fullShare x1
            ∗ owns (c : Thread nD τ) a5 fullShare x2 ∗ owns (c : Thread nD τ) a6 fullShare x3
            ∗ owns (c : Thread nD τ) a7 fullShare acc
            ∗ (iprop(owns (c : Thread nD τ) a3 fullShare x0 ∗ owns (c : Thread nD τ) a4 fullShare x1
                ∗ owns (c : Thread nD τ) a5 fullShare x2 ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__loss_kernel i a3 h3 a4 h4 a5 h5 a6 h6 a7 h7) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h3.eq_unread hf0; obtain rfl := h4.eq_unread hf1
    obtain rfl := h5.eq_unread hf2; obtain rfl := h6.eq_unread hf3; obtain rfl := h7.eq_unread hf4
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

end Cert.Kernel.Tile

end
-- ==== Proof.TileAccumBits.lean ====
/-
  The accumulator point by point, the pipeline's proof data, and the body obligation.

  After the body at a point the 32 × 1 accumulator buffer holds: on the first tile of a row block, what the body's stores
  leave over anything; on a later tile, what they leave over the contents the point before left (the buffer is written
  back only after the last tile of a row block, so between two tiles of one row block nothing touches it). The four input
  windows' buffers hold their blocks of the argument arrays at every point, fetched there or kept from the point before.
  The scores array is read through two windows and so is the labels array: each of the two windows on an array holds one
  half of the array's share.
-/
import proofs.«122645_j13649406067127_2_alg».proof.Proof.TileRunsBits

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers as the region finds them: as launched (no host line runs before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the accumulator's window, through which its contents are stated (the choice does not matter). -/
abbrev accView : View sig .tc .vmem S32x1 .f32 := (Memref.whole cc0_stg4_0 : Memref sig .tc .vmem S32x1 .f32).view

/-- Each window's current staging memref at point `t`, as the pipeline passes it to the body, and its wholeness. -/
abbrev ms0 (t : Fin cfg0.N) : Memref sig .tc .vmem S32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1 .f32 := win0_4.stage (cfg0.slots t 4)
abbrev hs4 (t : Fin cfg0.N) : (ms4 t).IsWhole := hstage0_4 ((cfg0.slots t 4).cast nbuf0_4)

/-- On a first tile the body's stores cover the accumulator's block. -/
theorem coverFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) (y : S32x1.Idx) :
    ∃ pc ∈ (runFirst c i a3 h3 a4 h4 a5 h5 a6 h6 a7 h7 hc x0 x1 x2 x3).1, y ∈ pc.1.set :=
  View.cover_of_tiledL (runFirst c i a3 h3 a4 h4 a5 h5 a6 h6 a7 h7 hc x0 x1 x2 x3).1 S32x1.size (by sl_kernel_rfl) y

/-- What a first tile leaves in the accumulator's buffer: its stores read back. -/
def outFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) : Vec F S32x1 .f32 :=
  accView.read (Elt F) (accView.writes (Elt F) accView.junk (runFirst c i a3 h3 a4 h4 a5 h5 a6 h6 a7 h7 hc x0 x1 x2 x3).1)

/-- On a later tile the body's store covers the accumulator's block. -/
theorem coverLater (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) (y : S32x1.Idx) :
    ∃ pc ∈ (runLater c i a3 h3 a4 h4 a5 h5 a6 h6 a7 h7 hc x0 x1 x2 x3 acc).1, y ∈ pc.1.set :=
  View.cover_of_tiledL (runLater c i a3 h3 a4 h4 a5 h5 a6 h6 a7 h7 hc x0 x1 x2 x3 acc).1 S32x1.size (by sl_kernel_rfl) y

/-- What a later tile leaves in the accumulator's buffer: its store read back. -/
def outLater (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) : Vec F S32x1 .f32 :=
  accView.read (Elt F) (accView.writes (Elt F) accView.junk (runLater c i a3 h3 a4 h4 a5 h5 a6 h6 a7 h7 hc x0 x1 x2 x3 acc).1)

/-! ## The accumulator after each point -/

/-- What the accumulator's buffer holds after the body at position `n`: the first tile of a row block starts afresh, a
    later tile continues from what position `n - 1` left. -/
def accAt (c : Dev nD) : (n : ℕ) → n < cfg0.N → Vec F S32x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((isFirst_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 64 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- `accAt` at a first tile. -/
theorem accAt_first (c : Dev nD) (t : Fin cfg0.N) (h0 : t.val % 64 = 0) :
    accAt m c t.val t.isLt = outFirst c (grid0.coords t) (ms0 t) (hs0 t) (ms1 t) (hs1 t) (ms2 t) (hs2 t) (ms3 t) (hs3 t) (ms4 t) (hs4 t)
      ((isFirst_iff t).mpr h0) (iblk m c 0 t) (iblk m c 1 t) (iblk m c 2 t) (iblk m c 3 t) := by
  obtain ⟨n, hn⟩ := t
  cases n with
  | zero => exact rfl
  | succ n => exact (dif_pos h0).trans rfl

/-- `accAt` at a later tile: over what the point before left. -/
theorem accAt_later (c : Dev nD) (t : Fin cfg0.N) (h0 : ¬t.val % 64 = 0) :
    accAt m c t.val t.isLt = outLater c (grid0.coords t) (ms0 t) (hs0 t) (ms1 t) (hs1 t) (ms2 t) (hs2 t) (ms3 t) (hs3 t) (ms4 t) (hs4 t)
      (fun h => h0 ((isFirst_iff t).mp h)) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the accumulator's at `accAt`; the invariant the scoped rest and the generator
    register; nothing owed. The two windows on the scores array hold the two halves of its share, and so do the two
    windows on the labels array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- Each input's current staging buffer holds its block at every point, fetched there or kept. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- On a later tile the accumulator's current buffer holds what the body left at the point before: the point is not the
    first, and the buffer is written back only after the last tile of a row block. -/
theorem before_4_later (c : Dev nD) (t : Fin cfg0.N) (h0 : ¬t.val % 64 = 0) (d) :
    (dats m 0 c).before 4 t d = accAt m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the closed form says which case the point is in; on a
    later tile the accumulator's buffer holds what the point before left; so the case's run applies, and what its stores
    leave is `accAt` because they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 64 = 0
  · rw [accAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [accAt_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.LibSharedArrays.lean ====
/-
  One array handed to a kernel through several input windows.

  A pipeline holds each window's array separately, window by window, at a share of the window's own; the launch hands
  over the DISTINCT buffers behind the arrays, each whole at the full share. When several windows read one buffer the
  buffer's full share has to be dealt among them. Two facts, for any window layout:

  * regrouping — the windows are partitioned by the buffer behind their array, so the distinct buffers entail any
    window-indexed family of resources as soon as each buffer by itself entails the family over the windows on it;
  * dealing — one points-to at the full share is three points-tos of the same contents at the shares
    left, right·left, right·right (the tree share's two halves, the right one halved again), and back.
-/
import Idealize.ShloMosaic.Lib.Pipeline.Launch
import Idealize.ShloMosaic.Lib.Pipeline.Frame
import Idealize.ShloMosaic.Lib.Pipeline.FrameSuffix

noncomputable section

namespace Cert.Lib.SharedArrays

open Idealize.ShloMosaic Idealize.ShloMosaic.Pipeline
open Idealize.SL
open Idealize.SL.BI (sProp bigSep bigSep_mono bigSep_biUnion)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The windows, grouped by the buffer behind their array, are all the windows. -/
theorem biUnion_fibers {gr W : Nat} (win : Fin W → WinSpec sig gr) :
    (Finset.univ.image (arrRef win)).biUnion (fun b => Finset.univ.filter fun w => arrRef win w = b) = Finset.univ := by
  ext w
  simp only [Finset.mem_biUnion, Finset.mem_image, Finset.mem_univ, true_and, Finset.mem_filter, iff_true]
  exact ⟨arrRef win w, ⟨w, rfl⟩, rfl⟩

/-- A family over the windows whose array lies among the buffers `s`, grouped buffer by buffer. -/
theorem bigSep_fiberwise {gr W : Nat} (win : Fin W → WinSpec sig gr) (P : Fin W → sProp 𝕄) (s : Finset (Ref sig .tc)) :
    bigSep (Finset.univ.filter fun w => arrRef win w ∈ s) P
      = bigSep s fun b => bigSep (Finset.univ.filter fun w => arrRef win w = b) P := by
  classical
  induction s using Finset.induction_on with
  | empty => simp
  | insert b s hb ih =>
    have hd : Disjoint (Finset.univ.filter fun w => arrRef win w = b) (Finset.univ.filter fun w => arrRef win w ∈ s) :=
      Finset.disjoint_filter.mpr fun w _ h₁ h₂ => hb (h₁ ▸ h₂)
    have hu : (Finset.univ.filter fun w => arrRef win w ∈ insert b s)
        = (Finset.univ.filter fun w => arrRef win w = b) ∪ (Finset.univ.filter fun w => arrRef win w ∈ s) := by
      ext w; simp [Finset.mem_insert]
    rw [BI.bigSep_insert hb, ← ih, hu, BI.bigSep_union hd]

/-- Every window's array lies among the buffers behind the arrays. -/
theorem filter_image_eq_univ {gr W : Nat} (win : Fin W → WinSpec sig gr) :
    (Finset.univ.filter fun w => arrRef win w ∈ Finset.univ.image (arrRef win)) = Finset.univ := by
  ext w; simp

/-- REGROUPING, as an equality: a family over all windows is the family over the windows on each buffer, buffer by buffer. -/
theorem bigSep_windows_eq {gr W : Nat} (win : Fin W → WinSpec sig gr) (P : Fin W → sProp 𝕄) :
    bigSep Finset.univ P
      = bigSep (Finset.univ.image (arrRef win)) fun b => bigSep (Finset.univ.filter fun w => arrRef win w = b) P := by
  rw [← bigSep_fiberwise, filter_image_eq_univ]

/-- JOINING (the converse of dealing, at a region's exit). If the resources of the windows on each buffer entail the buffer
    whole at the full share at contents `V`, then the windows' resources together entail the distinct buffers at `V`. -/
theorem entails_arrBufs {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      bigSep (Finset.univ.filter fun w => arrRef win w = b) P ⊢ ((((c.tc : Thread nD τ).loc b) ↦{fullShare} V b : sProp 𝕄))) :
    bigSep Finset.univ P ⊢ (arrBufs win c V : sProp 𝕄) := by
  classical
  rw [bigSep_windows_eq win P]
  unfold arrBufs
  exact bigSep_mono h

/-- REGROUPING. If each distinct buffer, whole at the full share at contents `V`, entails the resources `P w` of the
    windows `w` whose array it is, then the distinct buffers together entail `P` over every window. -/
theorem arrBufs_entails {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊢ bigSep (Finset.univ.filter fun w => arrRef win w = b) P) :
    (arrBufs win c V : sProp 𝕄) ⊢ bigSep Finset.univ P := by
  classical
  unfold arrBufs
  have hflat := bigSep_biUnion (M := 𝕄) (Finset.univ.image (arrRef win))
    (fun b => Finset.univ.filter fun w => arrRef win w = b) (Φ := P)
  rw [biUnion_fibers] at hflat
  exact (bigSep_mono h).trans hflat

/-- REGROUPING, both ways at once. -/
theorem arrBufs_iff {gr W : Nat} (win : Fin W → WinSpec sig gr) (c : Dev nD)
    (V : (b : Ref sig .tc) → Buf Val ((c.tc : Thread nD τ).loc b)) (P : Fin W → sProp 𝕄)
    (h : ∀ b ∈ Finset.univ.image (arrRef win),
      ((((c.tc : Thread nD τ).loc b) ↦{fullShare} V b : sProp 𝕄)) ⊣⊢ bigSep (Finset.univ.filter fun w => arrRef win w = b) P) :
    (arrBufs win c V : sProp 𝕄) ⊣⊢ bigSep Finset.univ P :=
  ⟨arrBufs_entails win c V P fun b hb => (h b hb).1, entails_arrBufs win c V P fun b hb => (h b hb).2⟩

/-- DEALING. One points-to at the full share is three of the same contents, at the left half, the left half of the
    right half and the right half of the right half; the three together are the full share again. -/
theorem pointsTo_deal3 {ℓ : Loc nD τ sig} (I : Finset (Idx ℓ)) (f : Buf Val ℓ) :
    (ℓ ↦[I]{fullShare} f : sProp 𝕄)
      ⊣⊢ iprop((ℓ ↦[I]{fullShare.left} f) ∗ (ℓ ↦[I]{fullShare.right.left} f) ∗ ℓ ↦[I]{fullShare.right.right} f) :=
  (pointsTo_share (PosShare.mem_left_op_right fullShare)).trans
    ⟨sep_mono .rfl (pointsTo_share (PosShare.mem_left_op_right fullShare.right)).1,
     sep_mono .rfl (pointsTo_share (PosShare.mem_left_op_right fullShare.right)).2⟩

/-- The three shares of the deal, for a window's position among the three windows on one buffer. -/
def share3 : Fin 3 → PosShare TreeShare
  | 0 => fullShare.left
  | 1 => fullShare.right.left
  | 2 => fullShare.right.right

/-- A core's unscoped buffers are the distinct buffers behind the windows' arrays and the rest, whether or not
    windows share an array. -/
theorem unscopedBufs_eq {gr W : Nat} (win : Fin W → WinSpec sig gr) (hunscoped : ∀ w, (arrRef win w).isScoped = false) (c : Dev nD)
    (V : (b : Ref sig .tc) → Buf Val ((c.tc : Thread nD τ).loc b)) :
    (unscopedBufs c V : sProp 𝕄) = iprop((arrBufs win c V : sProp 𝕄) ∗ unscopedRest win c V) := by
  classical
  have hA : Finset.univ.image (arrRef win) ⊆ Finset.univ.filter fun b : Ref sig .tc => ¬ b.isScoped := fun b hb => by
    obtain ⟨w, -, rfl⟩ := Finset.mem_image.mp hb
    exact Finset.mem_filter.mpr ⟨Finset.mem_univ _, by simp [hunscoped w]⟩
  unfold unscopedBufs unscopedRest arrBufs
  rw [BI.bigSep_sdiff_split hA]
  rfl

/-! ## The host lines after a region whose windows share arrays -/

section Tail

variable {Λ₀ : Idealize.SL.Sem.Labels} {P : Type} [Fintype P] [DecidableEq P]
variable (pcs : P → PCfg sig Λ₀ Val) (defs₀ : Defs nD τ sig Val Λ₀) (𝒱₀ : Variants)

local notation "𝔻" => Pipeline.defs pcs defs₀
local notation "𝕍" => Variants.lift 𝒱₀

omit [Fintype P] [DecidableEq P] in
set_option backward.isDefEq.respectTransparency.types false in
/-- The lines after the region, run from the windows' resources `Pw` and the bypassing buffers. The windows' resources
    join into the distinct buffers behind the arrays at the exit contents `Wv` (`hjoin`) and are dealt from them again
    (`hdeal`); no line writes an array (`hkeep`). The lines then run over the core's unscoped buffers, held whole, and the
    windows' resources come back as they were beside the bypassing buffers at the lines' results. -/
theorem tail_seqs_shared [Preorder Lvl] {gr W : Nat} (win : Fin W → WinSpec sig gr) (hunscoped : ∀ w, (arrRef win w).isScoped = false)
    (c : Dev nD) (Wv : Valuation τ sig Val) (Pw : Fin W → sProp 𝕄)
    (hjoin : bigSep Finset.univ Pw ⊢ (arrBufs win c (fun b => Wv (Proc.devRef .tc b)) : sProp 𝕄))
    (hdeal : (arrBufs win c (fun b => Wv (Proc.devRef .tc b)) : sProp 𝕄) ⊢ bigSep Finset.univ Pw)
    (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(bigSep Finset.univ Pw ∗ unscopedRest win c (fun b => StableHlo.after opss.flatten Wv (Proc.devRef .tc b))) -∗ Q' ⟨⟩)
        ∗ boundary (c.tc : Thread nD τ) ∗ bigSep Finset.univ Pw ∗ unscopedRest win c (fun b => Wv (Proc.devRef .tc b)))
      ⊢ wp frame (wpE 𝔻 𝕍 (c.tc : Thread nD τ) none) Set.univ (chain (opss.map StableHlo.seq)) Q' := by
  classical
  have hheld : ∀ Wv' : Valuation τ sig Val, (StableHlo.held (c.tc : Thread nD τ) (ucRefs τ sig) Wv' : sProp 𝕄)
      = iprop((arrBufs win c (fun b => Wv' (Proc.devRef .tc b)) : sProp 𝕄) ∗ unscopedRest win c (fun b => Wv' (Proc.devRef .tc b))) := fun Wv' => by
    rw [← unscopedBufs_held (Ix := Ix) (Name := Name) (U := U) (Lvl := Lvl) c Wv']
    exact unscopedBufs_eq win hunscoped c _
  have hsame : (arrBufs win c (fun b => StableHlo.after opss.flatten Wv (Proc.devRef .tc b)) : sProp 𝕄)
      = arrBufs win c (fun b => Wv (Proc.devRef .tc b)) := by
    unfold arrBufs
    refine BI.bigSep_congr fun b hb => ?_
    obtain ⟨w, -, rfl⟩ := Finset.mem_image.mp hb
    beta_reduce
    rw [StableHlo.after_of_forall_not_mem _ _ fun op hop => ?_]
    obtain ⟨ops, hops, hop⟩ := List.mem_flatten.mp hop
    exact hkeep ops hops op hop w
  rw [← List.append_nil (opss.map StableHlo.seq)]
  iintro ⟨Hk, Hb, Hp, Hr⟩
  ihave Ha := hjoin $$ Hp
  iapply (wp_seqs_then pcs defs₀ 𝒱₀ c (ucRefs τ sig) [] opss (fun ops ho op h => sub_ucRefs op (hsub ops ho op h)) hfresh Wv) $$ [Hb Ha Hr]
  · rw [hheld Wv]
    isplitl [Hb]; · iexact Hb
    isplitl [Ha] <;> iassumption
  iintro Hb
  rw [chain_nil, wp_pure, hheld, hsame]
  imodintro
  iapply Hk
  icases Hb with ⟨-, Ha, Hr⟩
  isplitl [Ha]
  · iapply hdeal; iexact Ha
  iexact Hr

end Tail

/-! ## The frame run of a region whose windows share arrays, @main continuing after it -/

section Frame

variable {Λ₀ : Idealize.SL.Sem.Labels} {P : Type} [Fintype P] [DecidableEq P] [∀ e, Nonempty (Val e)]
variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝕄₁" => MT nD τ sig Unit Val ℕ (UR sig nD τ) ℕ
local notation "𝔻" => Pipeline.defs (fun q => Cfg.toPCfg (Val := Val) (cfgs q)) defs₀

/-- What a run of such a program ends in: every window's array at what the library computes from the proof data, and
    every unscoped buffer that is no window's array at the results of the lines after the region, run from the exit
    contents `VN`. -/
def SharedPost (VN : Dev nD → Valuation τ sig Val) (opss : List (List (HloOp τ sig Val))) : PUnit × MemSt nD τ sig Val → Prop := fun r =>
  ∀ c : Dev nD, (∀ w, r.2.mem (((cfg).spec w).arr.view.loc (c.tc : Thread nD τ)) = (dats p c).arrAt w (cfg).N)
    ∧ ∀ b ∈ restRefs sig (cfg).spec, r.2.mem ((c.tc : Thread nD τ).loc b) = StableHlo.after opss.flatten (VN c) (Proc.devRef .tc b)

set_option backward.isDefEq.respectTransparency.types false in
/-- THE FRAME RUN for a kernel of the plain class — no semaphore, scratch or table of its own, nothing carried between
    points beyond the tracked invariant — whose windows MAY SHARE ARRAYS, in an @main that continues after the region
    with the host lines `opss`. The layout comes by its fields (`hinj`, `hw`, `hne`, `harr`, `hstage`); in place of the
    arrays' distinctness the certificate says how the distinct buffers at the entry contents `V₀` are dealt to the
    windows (`hdeal0`), and, at the exit contents `VN` — `V₀` off the arrays (`hVN`) —, that the windows' holdings join
    into the distinct buffers and are dealt from them again (`hjoinN`, `hdealN`); the lines write no array (`hkeep`). -/
theorem θ_run_frame_around_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ VN : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hVN : ∀ c, ∀ b ∈ restRefs sig (cfg).spec, VN c (Proc.devRef .tc b) = V₀ c (Proc.devRef .tc b))
    (hdeal0 : ∀ c, (arrBufs (cfg).spec c (fun b => V₀ c (Proc.devRef .tc b)) : sProp 𝕄₁) ⊢ (dats p c).arrays ((dats p c).arrAt · 0))
    (hjoinN : ∀ c, (dats p c).arrays ((dats p c).arrAt · (cfg).N) ⊢ (arrBufs (cfg).spec c (fun b => VN c (Proc.devRef .tc b)) : sProp 𝕄₁))
    (hdealN : ∀ c, (arrBufs (cfg).spec c (fun b => VN c (Proc.devRef .tc b)) : sProp 𝕄₁) ⊢ (dats p c).arrays ((dats p c).arrAt · (cfg).N))
    (hin : ∀ c, ΦA (cfg).spec c ⊢ (dats p c).Φ 0) (hout : ∀ c, (dats p c).Φ (Fin.last (cfg).N) ⊢ ΦA (cfg).spec c) :
    θ_run 𝔻 (onTc main) (s₀ m g) (SharedPost cfgs dats p VN opss) := by
  classical
  exact θ_run_region_pf_tail (fun q => (cfgs q).toPCfg (Val := Val)) (fun q => (cfgs q).toPCfg_adm) dats () hinj p hw
    (OwnSemFacts.none (cfg).spec) (PreFacts.none _) emb₁ defs₀ 𝒱₀ m g main
    (fun _ => chain (opss.map StableHlo.seq)) hbody hne harr hstage howed
    (G := fun _ => iprop(emp)) (u₀ := initOf (cells cfgs hinj) (launchToks cfgs hinj))
    (hu₀ := by
      iintro Hu; imodintro
      isplitl [Hu]; · iapply (show (ownU _ : sProp 𝕄₁) ⊢ BI.own (emb₁ (initOf (cells cfgs hinj) (launchToks cfgs hinj))) from .rfl); iexact Hu
      iapply (show (BI.emp : sProp 𝕄₁) ⊢ bigSep Finset.univ (fun _ : Dev nD => (BI.emp : sProp 𝕄₁)) from by rw [BI.bigSep_emp_const])
      iempintro)
    (V := fun c b => V₀ c (Proc.devRef .tc b)) (hmain := hmain)
    (hsplit := hdeal0)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (fun b => V₀ c (Proc.devRef .tc b)))
    (Z' := fun c => unscopedRestP (Ix := Unit) (Name := ℕ) (U := UR sig nD τ) (Lvl := ℕ) Prefetch.none (cfg).spec c
      (fun b => StableHlo.after opss.flatten (VN c) (Proc.devRef .tc b)))
    (hX := fun c => by
      iintro ⟨HU, -, -, -, Hp, -⟩; imodintro
      isplitl [Hp]; · iexists _; iexact Hp
      iexact HU)
    (hin := fun c => (show _ ⊢ ΦA (cfg).spec c by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := fun c Q' => by
      rw [unscopedRestP_none, unscopedRestP_none,
        show (unscopedRest (cfg).spec c (fun b => V₀ c (Proc.devRef .tc b)) : sProp 𝕄₁)
            = unscopedRest (cfg).spec c (fun b => VN c (Proc.devRef .tc b)) from by
          unfold unscopedRest; exact BI.bigSep_congr fun b hb => by beta_reduce; rw [hVN c b hb]]
      exact tail_seqs_shared (fun q => (cfgs q).toPCfg (Val := Val)) defs₀ 𝒱₀ (cfg).spec hw.arr_unscoped c (VN c) _
        (hjoinN c) (hdealN c) opss hsub hfresh hkeep Q')
    (QY := fun c s => ∀ b ∈ restRefs sig (cfg).spec, s.mem ((c.tc : Thread nD τ).loc b) = StableHlo.after opss.flatten (VN c) (Proc.devRef .tc b))
    (hY := fun c s' => by
      rw [unscopedRestP_none]
      iintro ⟨-, HU, HSI⟩
      unfold unscopedRest
      imodintro
      iapply (pointsTo_read_all (restRefs sig (cfg).spec) (fun b => (c.tc : Thread nD τ).loc b)
        (fun b => StableHlo.after opss.flatten (VN c) (Proc.devRef .tc b)) s')
      isplitl [HU] <;> iassumption)
    (hQ := fun s h c => ⟨(h c).1, (h c).2.2⟩)

end Frame

end Cert.Lib.SharedArrays

end
-- ==== Proof.TileLaunchBits.lean ====
/-
  The launch: the whole program's run from the body obligation.

  The pipeline holds each window's array by itself, the two windows on the scores array at the two halves of its share and
  likewise the two on the labels array, the row sums' array whole. The launch hands over the three DISTINCT buffers, each
  whole at the full share: a full share is its two halves, so the three buffers are the five windows' holdings whenever
  the windows on one array are stated at the same contents — at the region's entry (the launch contents) and at its exit
  (the inputs as launched: no input is written; the row sums at what the write-backs left). After the region @main runs
  four host lines (a zero, the sum of the row sums, the constant 64, the quotient) that write none of the three arrays.
-/
import proofs.«122645_j13649406067127_2_alg».proof.Proof.TileAccumBits
import proofs.«122645_j13649406067127_2_alg».proof.Proof.LibSharedArrays
import Idealize.ShloMosaic.Lib.StableHlo.Run

set_option maxRecDepth 16384

noncomputable section

namespace Cert.Kernel.Tile

open Cert.Kernel Cert.Kernel.Gen Cert.Lib.SharedArrays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three buffers and the five windows -/

/-- The distinct buffers behind the windows' arrays, one by one: the scores, the labels, the row sums. -/
theorem arrBufs_chain (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_arg0) ↦{fullShare} Vb main_arg0) ∗ (((c : Thread nD τ).loc main_arg1) ↦{fullShare} Vb main_arg1)
          ∗ (((c : Thread nD τ).loc main_v0) ↦{fullShare} Vb main_v0)) := by
  unfold Pipeline.arrBufs
  exact bigSep_eq_bigSepL_of_eq [main_arg0, main_arg1, main_v0] (by decide) (by decide) _

/-- The windows' holdings, one by one, each at its share. -/
theorem arrays_chain (c : Dev nD) (G : (w : Fin cfg0.W) → Buf (Elt F) ((cfg0.win w).arr.view.loc (c.tc : Thread nD τ))) :
    (dats m 0 c).arrays G
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- DEALING AND JOINING: the three buffers at contents `Vb` are the five windows' holdings at contents `G` as soon as each
    window's contents are its buffer's. -/
theorem deal (c : Dev nD) (Vb : (b : Ref sig .tc) → Buf (Elt F) ((c : Thread nD τ).loc b))
    (G : (w : Fin cfg0.W) → Buf (Elt F) ((cfg0.win w).arr.view.loc (c.tc : Thread nD τ)))
    (h0 : G 0 = Vb main_arg0) (h1 : G 1 = Vb main_arg0) (h2 : G 2 = Vb main_arg1) (h3 : G 3 = Vb main_arg1) (h4 : G 4 = Vb main_v0) :
    (Pipeline.arrBufs (Ix := Unit) (Name := ℕ) (U := UR sig nD τ) (Lvl := ℕ) spec0 c Vb : sProp 𝕄) ⊣⊢ (dats m 0 c).arrays G := by
  rw [arrBufs_chain, arrays_chain, h0, h1, h2, h3, h4]
  refine ⟨?_, ?_⟩
  · iintro ⟨Ha, Hb, Hc⟩
    ihave Ha' := (pointsTo_share (PosShare.mem_left_op_right fullShare)).1 $$ Ha
    ihave Hb' := (pointsTo_share (PosShare.mem_left_op_right fullShare)).1 $$ Hb
    icases Ha' with ⟨Ha1, Ha2⟩
    icases Hb' with ⟨Hb1, Hb2⟩
    isplitl [Ha1]; · iexact Ha1
    isplitl [Ha2]; · iexact Ha2
    isplitl [Hb1]; · iexact Hb1
    isplitl [Hb2]; · iexact Hb2
    iexact Hc
  · iintro ⟨Ha1, Ha2, Hb1, Hb2, Hc⟩
    isplitl [Ha1 Ha2]
    · iapply (pointsTo_share (PosShare.mem_left_op_right fullShare)).2
      isplitl [Ha1]; · iexact Ha1
      iexact Ha2
    isplitl [Hb1 Hb2]
    · iapply (pointsTo_share (PosShare.mem_left_op_right fullShare)).2
      isplitl [Hb1]; · iexact Hb1
      iexact Hb2
    iexact Hc

/-! ## The contents at the region's entry and exit -/

/-- Core `c`'s buffers when the region is entered, as a valuation: as launched (no host line runs before the region). -/
abbrev V0 (c : Dev nD) : Valuation τ sig (Elt F) := StableHlo.after (List.flatten []) (fun b => m (c, b))

/-- Core `c`'s buffers when the region is left: as launched, but for the row sums' array, at what the write-backs left. -/
def VN (c : Dev nD) : Valuation τ sig (Elt F) :=
  Function.update (V0 m c) (Proc.devRef .tc main_v0) ((dats m 0 c).arrAt 4 cfg0.N)

theorem VN_rows (c : Dev nD) : VN m c (Proc.devRef .tc main_v0) = (dats m 0 c).arrAt 4 cfg0.N := by
  unfold VN; exact Function.update_self ..

theorem VN_other (c : Dev nD) (b : Ref sig .tc) (hb : b ≠ main_v0) : VN m c (Proc.devRef .tc b) = m (c, Proc.devRef .tc b) := by
  unfold VN; exact Function.update_of_ne (StableHlo.devRef_ne_of_ne hb) ..

/-! ## @main around the region -/

theorem hostOps1_fresh : (hostOps1 : List (HloOp τ sig (Elt F))).Forall fun op => op.fresh = ∅ := by
  simp only [List.Forall]; repeat' constructor

/-- @main is the region continued by the four host lines. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1].map StableHlo.seq)) :=
  Pipeline.hmain_around cfgs 0 defs₀ 𝒱₀ m main [] [hostOps1] (by simp only [List.Forall])
    (by simp only [List.Forall]) main_chain

/-- The lines after the region touch TensorCore buffers only, -/
theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline: each writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-! ## The run -/

set_option backward.isDefEq.respectTransparency.types false in
/-- From any memory with zero counters every weakly fair execution of @main terminates; every final state has each
    window's array at what the library computes from the proof data and every other unscoped buffer at what the four
    host lines compute from the exit contents. -/
theorem run_main : θ_run defs (onTc (τ := τ) (main (F := F))) (s₀ m ρ) (SharedPost cfgs (dats m) 0 (VN m) [hostOps1]) :=
  θ_run_frame_around_shared cfgs (dats m) (0 : Fin 1) defs₀ Variants.none cellOf_inj winFacts₀0 block_pos0 arr_whole0 stage_whole0 m ρ main
    (hbody := fun c => (body_obligation m c).loose) (howed := fun _ _ => rfl)
    (V₀ := V0 m) (VN := VN m) (opss := [hostOps1]) (hsub := tail_sub) (hfresh := tail_fresh) (hkeep := tail_keeps)
    (hmain := hmain m Variants.none)
    (hVN := fun c b hb => VN_other m c b (fun h => by
      subst h
      exact (Finset.mem_sdiff.mp hb).2 (Finset.mem_image.mpr ⟨4, Finset.mem_univ _, rfl⟩)))
    (hdeal0 := fun c => (deal m c (fun b => V0 m c (Proc.devRef .tc b)) _ rfl rfl rfl rfl rfl).1)
    (hjoinN := fun c => (deal m c (fun b => VN m c (Proc.devRef .tc b)) _
      (((dats m 0 c).arrAt_in 0 rfl _).trans (VN_other m c main_arg0 (by decide)).symm)
      (((dats m 0 c).arrAt_in 1 rfl _).trans (VN_other m c main_arg0 (by decide)).symm)
      (((dats m 0 c).arrAt_in 2 rfl _).trans (VN_other m c main_arg1 (by decide)).symm)
      (((dats m 0 c).arrAt_in 3 rfl _).trans (VN_other m c main_arg1 (by decide)).symm)
      (VN_rows m c).symm).2)
    (hdealN := fun c => (deal m c (fun b => VN m c (Proc.devRef .tc b)) _
      (((dats m 0 c).arrAt_in 0 rfl _).trans (VN_other m c main_arg0 (by decide)).symm)
      (((dats m 0 c).arrAt_in 1 rfl _).trans (VN_other m c main_arg0 (by decide)).symm)
      (((dats m 0 c).arrAt_in 2 rfl _).trans (VN_other m c main_arg1 (by decide)).symm)
      (((dats m 0 c).arrAt_in 3 rfl _).trans (VN_other m c main_arg1 (by decide)).symm)
      (VN_rows m c).symm).1)
    (hin := fun _ => .rfl) (hout := fun _ => .rfl)

/-- THE FRAME: every weakly fair execution of @main terminates, faulting nowhere, and the two argument arrays end as
    launched: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans ((dats m 0 c).arrAt_in 0 rfl _), ((h c).1 2).trans ((dats m 0 c).arrAt_in 2 rfl _)⟩)
    (run_main m ρ)

end Cert.Kernel.Tile

end
-- ==== Proof.TileRunsIdeal.lean ====
/-
  The kernel body on one tile, as a Hoare triple, in its two control cases.

  A grid point (q, j, k) handles rows 32q … 32q+31 and the 128 × 128 tile of column pairs (j-block, k-block). The body
  first zeroes the 32 × 1 accumulator when the tile is the first of its row block (j = 0 and k = 0), then loads the four
  input tiles, and stores the accumulator plus the tile's row sums. Here: the branch condition in closed form over the
  128 points, and for each case the run of the body from whole staging buffers — the inputs come back as they were and
  the accumulator's buffer ends as a list of stores over whatever it held, found by running the body.
-/
import proofs.«122645_j13649406067127_2_alg».proof.Proof.Gen.KernelIdeal.Launch
import proofs.«122645_j13649406067127_2_alg».proof.Proof.Gen.KernelIdeal.Skeleton
import proofs.«122645_j13649406067127_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition, from the grid coordinates: both tile coordinates are zero. -/
abbrev isFirst (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The points run row block by row block, 64 tiles each: a tile is the first of its row block exactly at the multiples of 64. -/
theorem isFirst_iff : ∀ t : Fin cfg0.N, isFirst (grid0.coords t) ↔ t.val % 64 = 0 :=
  (by decide +kernel : ∀ t : Fin grid0.N, isFirst (grid0.coords t) ↔ t.val % 64 = 0)

set_option maxHeartbeats 1000000 in
/-- The body on a FIRST tile: the accumulator's buffer may hold anything; it ends as the stores `L` over that. -/
noncomputable def runFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) :
    { L : List (View.Piece (Elt F) S32x1 .f32) //
      ∀ (E : Set ℕ) (K : PUnit → sProp 𝕄),
        iprop(owns (c : Thread nD τ) a3 fullShare x0 ∗ owns (c : Thread nD τ) a4 fullShare x1
            ∗ owns (c : Thread nD τ) a5 fullShare x2 ∗ owns (c : Thread nD τ) a6 fullShare x3
            ∗ (∃ d, owns (c : Thread nD τ) a7 fullShare d)
            ∗ (iprop(owns (c : Thread nD τ) a3 fullShare x0 ∗ owns (c : Thread nD τ) a4 fullShare x1
                ∗ owns (c : Thread nD τ) a5 fullShare x2 ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__loss_kernel i a3 h3 a4 h4 a5 h5 a6 h6 a7 h7) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h3.eq_unread hf0; obtain rfl := h4.eq_unread hf1
    obtain rfl := h5.eq_unread hf2; obtain rfl := h6.eq_unread hf3
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

set_option maxHeartbeats 1000000 in
/-- The body on a LATER tile: the accumulator's buffer holds `acc`; it ends as the stores `L` over that. -/
noncomputable def runLater (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) :
    { L : List (View.Piece (Elt F) S32x1 .f32) //
      ∀ (E : Set ℕ) (K : PUnit → sProp 𝕄),
        iprop(owns (c : Thread nD τ) a3 fullShare x0 ∗ owns (c : Thread nD τ) a4 fullShare x1
            ∗ owns (c : Thread nD τ) a5 fullShare x2 ∗ owns (c : Thread nD τ) a6 fullShare x3
            ∗ owns (c : Thread nD τ) a7 fullShare acc
            ∗ (iprop(owns (c : Thread nD τ) a3 fullShare x0 ∗ owns (c : Thread nD τ) a4 fullShare x1
                ∗ owns (c : Thread nD τ) a5 fullShare x2 ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__loss_kernel i a3 h3 a4 h4 a5 h5 a6 h6 a7 h7) K } := by
  refine ⟨?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h3.eq_unread hf0; obtain rfl := h4.eq_unread hf1
    obtain rfl := h5.eq_unread hf2; obtain rfl := h6.eq_unread hf3; obtain rfl := h7.eq_unread hf4
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

end Cert.KernelIdeal.Tile

end
-- ==== Proof.TileAccumIdeal.lean ====
/-
  The accumulator point by point, the pipeline's proof data, and the body obligation.

  After the body at a point the 32 × 1 accumulator buffer holds: on the first tile of a row block, what the body's stores
  leave over anything; on a later tile, what they leave over the contents the point before left (the buffer is written
  back only after the last tile of a row block, so between two tiles of one row block nothing touches it). The four input
  windows' buffers hold their blocks of the argument arrays at every point, fetched there or kept from the point before.
  The scores array is read through two windows and so is the labels array: each of the two windows on an array holds one
  half of the array's share.
-/
import proofs.«122645_j13649406067127_2_alg».proof.Proof.TileRunsIdeal

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers as the region finds them: as launched (no host line runs before the region). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One staging buffer of the accumulator's window, through which its contents are stated (the choice does not matter). -/
abbrev accView : View sig .tc .vmem S32x1 .f32 := (Memref.whole cc0_stg4_0 : Memref sig .tc .vmem S32x1 .f32).view

/-- Each window's current staging memref at point `t`, as the pipeline passes it to the body, and its wholeness. -/
abbrev ms0 (t : Fin cfg0.N) : Memref sig .tc .vmem S32x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S32x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S32x1 .f32 := win0_4.stage (cfg0.slots t 4)
abbrev hs4 (t : Fin cfg0.N) : (ms4 t).IsWhole := hstage0_4 ((cfg0.slots t 4).cast nbuf0_4)

/-- On a first tile the body's stores cover the accumulator's block. -/
theorem coverFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) (y : S32x1.Idx) :
    ∃ pc ∈ (runFirst c i a3 h3 a4 h4 a5 h5 a6 h6 a7 h7 hc x0 x1 x2 x3).1, y ∈ pc.1.set :=
  View.cover_of_tiledL (runFirst c i a3 h3 a4 h4 a5 h5 a6 h6 a7 h7 hc x0 x1 x2 x3).1 S32x1.size (by sl_kernel_rfl) y

/-- What a first tile leaves in the accumulator's buffer: its stores read back. -/
def outFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) : Vec F S32x1 .f32 :=
  accView.read (Elt F) (accView.writes (Elt F) accView.junk (runFirst c i a3 h3 a4 h4 a5 h5 a6 h6 a7 h7 hc x0 x1 x2 x3).1)

/-- On a later tile the body's store covers the accumulator's block. -/
theorem coverLater (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) (y : S32x1.Idx) :
    ∃ pc ∈ (runLater c i a3 h3 a4 h4 a5 h5 a6 h6 a7 h7 hc x0 x1 x2 x3 acc).1, y ∈ pc.1.set :=
  View.cover_of_tiledL (runLater c i a3 h3 a4 h4 a5 h5 a6 h6 a7 h7 hc x0 x1 x2 x3 acc).1 S32x1.size (by sl_kernel_rfl) y

/-- What a later tile leaves in the accumulator's buffer: its store read back. -/
def outLater (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) : Vec F S32x1 .f32 :=
  accView.read (Elt F) (accView.writes (Elt F) accView.junk (runLater c i a3 h3 a4 h4 a5 h5 a6 h6 a7 h7 hc x0 x1 x2 x3 acc).1)

/-! ## The accumulator after each point -/

/-- What the accumulator's buffer holds after the body at position `n`: the first tile of a row block starts afresh, a
    later tile continues from what position `n - 1` left. -/
def accAt (c : Dev nD) : (n : ℕ) → n < cfg0.N → Vec F S32x1 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩)
      ((isFirst_iff ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 64 = 0 then
      outFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        ((isFirst_iff ⟨n + 1, hn⟩).mpr h0) (iblk m c 0 ⟨n + 1, hn⟩) (iblk m c 1 ⟨n + 1, hn⟩) (iblk m c 2 ⟨n + 1, hn⟩) (iblk m c 3 ⟨n + 1, hn⟩)
    else
      outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩)
        (fun h => h0 ((isFirst_iff ⟨n + 1, hn⟩).mp h)) (iblk m c 0 ⟨n + 1, hn⟩) (iblk m c 1 ⟨n + 1, hn⟩) (iblk m c 2 ⟨n + 1, hn⟩) (iblk m c 3 ⟨n + 1, hn⟩)
        (accAt c n (Nat.lt_of_succ_lt hn))

/-- `accAt` at a first tile. -/
theorem accAt_first (c : Dev nD) (t : Fin cfg0.N) (h0 : t.val % 64 = 0) :
    accAt m c t.val t.isLt = outFirst c (grid0.coords t) (ms0 t) (hs0 t) (ms1 t) (hs1 t) (ms2 t) (hs2 t) (ms3 t) (hs3 t) (ms4 t) (hs4 t)
      ((isFirst_iff t).mpr h0) (iblk m c 0 t) (iblk m c 1 t) (iblk m c 2 t) (iblk m c 3 t) := by
  obtain ⟨n, hn⟩ := t
  cases n with
  | zero => exact rfl
  | succ n => exact (dif_pos h0).trans rfl

/-- `accAt` at a later tile: over what the point before left. -/
theorem accAt_later (c : Dev nD) (t : Fin cfg0.N) (h0 : ¬t.val % 64 = 0) :
    accAt m c t.val t.isLt = outLater c (grid0.coords t) (ms0 t) (hs0 t) (ms1 t) (hs1 t) (ms2 t) (hs2 t) (ms3 t) (hs3 t) (ms4 t) (hs4 t)
      (fun h => h0 ((isFirst_iff t).mp h)) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the accumulator's at `accAt`; the invariant the scoped rest and the generator
    register; nothing owed. The two windows on the scores array hold the two halves of its share, and so do the two
    windows on the labels array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- Each input's current staging buffer holds its block at every point, fetched there or kept. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- On a later tile the accumulator's current buffer holds what the body left at the point before: the point is not the
    first, and the buffer is written back only after the last tile of a row block. -/
theorem before_4_later (c : Dev nD) (t : Fin cfg0.N) (h0 : ¬t.val % 64 = 0) (d) :
    (dats m 0 c).before 4 t d = accAt m c (t.val - 1) (Nat.lt_of_le_of_lt (Nat.sub_le _ _) t.isLt) := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the closed form says which case the point is in; on a
    later tile the accumulator's buffer holds what the point before left; so the case's run applies, and what its stores
    leave is `accAt` because they cover the block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 64 = 0
  · rw [accAt_first m c t h0]
    unfold outFirst
    iintro ⟨HΦ, Ho, ⟨%d0, H0⟩, ⟨%d1, H1⟩, ⟨%d2, H2⟩, ⟨%d3, H3⟩, ⟨%d4, H4⟩⟩
    iapply ((runFirst c (grid0.coords t) _ _ _ _ _ _ _ _ _ _ ((isFirst_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverFirst c _ _ _ _ _ _ _ _ _ _ _ _ _ _ _ _)
  · rw [accAt_later m c t h0]
    simp only [before_4_later m c t h0]
    unfold outLater
    iintro ⟨HΦ, Ho, ⟨%d0, H0⟩, ⟨%d1, H1⟩, ⟨%d2, H2⟩, ⟨%d3, H3⟩, ⟨%d4, H4⟩⟩
    iapply ((runLater c (grid0.coords t) _ _ _ _ _ _ _ _ _ _ (fun h => h0 ((isFirst_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLater c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.TileLaunchIdeal.lean ====
/-
  The launch: the whole program's run from the body obligation.

  The pipeline holds each window's array by itself, the two windows on the scores array at the two halves of its share and
  likewise the two on the labels array, the row sums' array whole. The launch hands over the three DISTINCT buffers, each
  whole at the full share: a full share is its two halves, so the three buffers are the five windows' holdings whenever
  the windows on one array are stated at the same contents — at the region's entry (the launch contents) and at its exit
  (the inputs as launched: no input is written; the row sums at what the write-backs left). After the region @main runs
  four host lines (a zero, the sum of the row sums, the constant 64, the quotient) that write none of the three arrays.
-/
import proofs.«122645_j13649406067127_2_alg».proof.Proof.TileAccumIdeal
import proofs.«122645_j13649406067127_2_alg».proof.Proof.LibSharedArrays
import Idealize.ShloMosaic.Lib.StableHlo.Run

set_option maxRecDepth 16384

noncomputable section

namespace Cert.KernelIdeal.Tile

open Cert.KernelIdeal Cert.KernelIdeal.Gen Cert.Lib.SharedArrays
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three buffers and the five windows -/

/-- The distinct buffers behind the windows' arrays, one by one: the scores, the labels, the row sums. -/
theorem arrBufs_chain (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_arg0) ↦{fullShare} Vb main_arg0) ∗ (((c : Thread nD τ).loc main_arg1) ↦{fullShare} Vb main_arg1)
          ∗ (((c : Thread nD τ).loc main_v0) ↦{fullShare} Vb main_v0)) := by
  unfold Pipeline.arrBufs
  exact bigSep_eq_bigSepL_of_eq [main_arg0, main_arg1, main_v0] (by decide) (by decide) _

/-- The windows' holdings, one by one, each at its share. -/
theorem arrays_chain (c : Dev nD) (G : (w : Fin cfg0.W) → Buf (Elt F) ((cfg0.win w).arr.view.loc (c.tc : Thread nD τ))) :
    (dats m 0 c).arrays G
      = iprop((((c : Thread nD τ).loc main_arg0) ↦{fullShare.left} G 0) ∗ (((c : Thread nD τ).loc main_arg0) ↦{fullShare.right} G 1)
          ∗ (((c : Thread nD τ).loc main_arg1) ↦{fullShare.left} G 2) ∗ (((c : Thread nD τ).loc main_arg1) ↦{fullShare.right} G 3)
          ∗ (((c : Thread nD τ).loc main_v0) ↦{fullShare} G 4)) := by
  unfold Dat.arrays
  rw [bigSep_W0]
  simp only [(arr_whole0 0).set_eq_univ, (arr_whole0 1).set_eq_univ, (arr_whole0 2).set_eq_univ, (arr_whole0 3).set_eq_univ, (arr_whole0 4).set_eq_univ]
  rfl

/-- DEALING AND JOINING: the three buffers at contents `Vb` are the five windows' holdings at contents `G` as soon as each
    window's contents are its buffer's. -/
theorem deal (c : Dev nD) (Vb : (b : Ref sig .tc) → Buf (Elt F) ((c : Thread nD τ).loc b))
    (G : (w : Fin cfg0.W) → Buf (Elt F) ((cfg0.win w).arr.view.loc (c.tc : Thread nD τ)))
    (h0 : G 0 = Vb main_arg0) (h1 : G 1 = Vb main_arg0) (h2 : G 2 = Vb main_arg1) (h3 : G 3 = Vb main_arg1) (h4 : G 4 = Vb main_v0) :
    (Pipeline.arrBufs (Ix := Unit) (Name := ℕ) (U := UR sig nD τ) (Lvl := ℕ) spec0 c Vb : sProp 𝕄) ⊣⊢ (dats m 0 c).arrays G := by
  rw [arrBufs_chain, arrays_chain, h0, h1, h2, h3, h4]
  refine ⟨?_, ?_⟩
  · iintro ⟨Ha, Hb, Hc⟩
    ihave Ha' := (pointsTo_share (PosShare.mem_left_op_right fullShare)).1 $$ Ha
    ihave Hb' := (pointsTo_share (PosShare.mem_left_op_right fullShare)).1 $$ Hb
    icases Ha' with ⟨Ha1, Ha2⟩
    icases Hb' with ⟨Hb1, Hb2⟩
    isplitl [Ha1]; · iexact Ha1
    isplitl [Ha2]; · iexact Ha2
    isplitl [Hb1]; · iexact Hb1
    isplitl [Hb2]; · iexact Hb2
    iexact Hc
  · iintro ⟨Ha1, Ha2, Hb1, Hb2, Hc⟩
    isplitl [Ha1 Ha2]
    · iapply (pointsTo_share (PosShare.mem_left_op_right fullShare)).2
      isplitl [Ha1]; · iexact Ha1
      iexact Ha2
    isplitl [Hb1 Hb2]
    · iapply (pointsTo_share (PosShare.mem_left_op_right fullShare)).2
      isplitl [Hb1]; · iexact Hb1
      iexact Hb2
    iexact Hc

/-! ## The contents at the region's entry and exit -/

/-- Core `c`'s buffers when the region is entered, as a valuation: as launched (no host line runs before the region). -/
abbrev V0 (c : Dev nD) : Valuation τ sig (Elt F) := StableHlo.after (List.flatten []) (fun b => m (c, b))

/-- Core `c`'s buffers when the region is left: as launched, but for the row sums' array, at what the write-backs left. -/
def VN (c : Dev nD) : Valuation τ sig (Elt F) :=
  Function.update (V0 m c) (Proc.devRef .tc main_v0) ((dats m 0 c).arrAt 4 cfg0.N)

theorem VN_rows (c : Dev nD) : VN m c (Proc.devRef .tc main_v0) = (dats m 0 c).arrAt 4 cfg0.N := by
  unfold VN; exact Function.update_self ..

theorem VN_other (c : Dev nD) (b : Ref sig .tc) (hb : b ≠ main_v0) : VN m c (Proc.devRef .tc b) = m (c, Proc.devRef .tc b) := by
  unfold VN; exact Function.update_of_ne (StableHlo.devRef_ne_of_ne hb) ..

/-! ## @main around the region -/

theorem hostOps1_fresh : (hostOps1 : List (HloOp τ sig (Elt F))).Forall fun op => op.fresh = ∅ := by
  simp only [List.Forall]; repeat' constructor

/-- @main is the region continued by the four host lines. -/
theorem hmain (𝒱₀ : Variants) : Pipeline.HMainK (Ix := Unit) (Name := ℕ) (U := UR sig nD τ) (Lvl := ℕ) cfgs 0 defs₀ 𝒱₀ m (main (F := F))
      (fun c b => V0 m c (Proc.devRef .tc b)) (fun _ => Pipeline.chain ([hostOps1].map StableHlo.seq)) :=
  Pipeline.hmain_around cfgs 0 defs₀ 𝒱₀ m main [] [hostOps1] (by simp only [List.Forall])
    (by simp only [List.Forall]) main_chain

/-- The lines after the region touch TensorCore buffers only, -/
theorem tail_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write no array of the pipeline: each writes its own result buffer only. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.binary_writes, Finset.mem_singleton] <;> exact StableHlo.devRef_ne_of_ne (by decide)

/-! ## The run -/

set_option backward.isDefEq.respectTransparency.types false in
/-- From any memory with zero counters every weakly fair execution of @main terminates; every final state has each
    window's array at what the library computes from the proof data and every other unscoped buffer at what the four
    host lines compute from the exit contents. -/
theorem run_main : θ_run defs (onTc (τ := τ) (main (F := F))) (s₀ m ρ) (SharedPost cfgs (dats m) 0 (VN m) [hostOps1]) :=
  θ_run_frame_around_shared cfgs (dats m) (0 : Fin 1) defs₀ Variants.none cellOf_inj winFacts₀0 block_pos0 arr_whole0 stage_whole0 m ρ main
    (hbody := fun c => (body_obligation m c).loose) (howed := fun _ _ => rfl)
    (V₀ := V0 m) (VN := VN m) (opss := [hostOps1]) (hsub := tail_sub) (hfresh := tail_fresh) (hkeep := tail_keeps)
    (hmain := hmain m Variants.none)
    (hVN := fun c b hb => VN_other m c b (fun h => by
      subst h
      exact (Finset.mem_sdiff.mp hb).2 (Finset.mem_image.mpr ⟨4, Finset.mem_univ _, rfl⟩)))
    (hdeal0 := fun c => (deal m c (fun b => V0 m c (Proc.devRef .tc b)) _ rfl rfl rfl rfl rfl).1)
    (hjoinN := fun c => (deal m c (fun b => VN m c (Proc.devRef .tc b)) _
      (((dats m 0 c).arrAt_in 0 rfl _).trans (VN_other m c main_arg0 (by decide)).symm)
      (((dats m 0 c).arrAt_in 1 rfl _).trans (VN_other m c main_arg0 (by decide)).symm)
      (((dats m 0 c).arrAt_in 2 rfl _).trans (VN_other m c main_arg1 (by decide)).symm)
      (((dats m 0 c).arrAt_in 3 rfl _).trans (VN_other m c main_arg1 (by decide)).symm)
      (VN_rows m c).symm).2)
    (hdealN := fun c => (deal m c (fun b => VN m c (Proc.devRef .tc b)) _
      (((dats m 0 c).arrAt_in 0 rfl _).trans (VN_other m c main_arg0 (by decide)).symm)
      (((dats m 0 c).arrAt_in 1 rfl _).trans (VN_other m c main_arg0 (by decide)).symm)
      (((dats m 0 c).arrAt_in 2 rfl _).trans (VN_other m c main_arg1 (by decide)).symm)
      (((dats m 0 c).arrAt_in 3 rfl _).trans (VN_other m c main_arg1 (by decide)).symm)
      (VN_rows m c).symm).1)
    (hin := fun _ => .rfl) (hout := fun _ => .rfl)

/-- THE FRAME: every weakly fair execution of @main terminates, faulting nowhere, and the two argument arrays end as
    launched: each is an input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans ((dats m 0 c).arrAt_in 0 rfl _), ((h c).1 2).trans ((dats m 0 c).arrAt_in 2 rfl _)⟩)
    (run_main m ρ)

end Cert.KernelIdeal.Tile

end
-- ==== Proof.Hinge.lean ====
/-
  The loss both programs compute, as plain sums over the extended reals.

  For a row of scores `p` and labels `y`, an ordered pair (j, k) contributes `max (p k - p j) 0` when `j` is relevant
  (`y j` is the value 1.0) and `k` is not, and nothing otherwise. The kernel multiplies the rectified difference by the two
  indicators; the reference selects it. A row's loss is the sum over all ordered pairs, and the result is the mean of the 64
  rows' losses. The value 1.0 the labels are compared with and the divisor 64.0 are kept as the values their f32 patterns
  denote: the same patterns stand on both sides, so neither is ever evaluated.
-/
import Idealize.ShloMosaic.PureOps.Ideal
import Idealize.ShloMosaic.PureOps.Ideal.Laws
import Idealize.ShloMosaic.Lib.ValueIdx

noncomputable section

namespace Cert.Hinge

open Idealize.ShloMosaic Idealize.ShloMosaic.ValueIdx

/-- The extended real the f32 pattern of 1.0 denotes. -/
def one : EReal := Ideal.ofBits .f32 0x3F800000#32

/-- The indicator of a relevant label and of a non-relevant one, as the numbers 0 and 1. -/
def rel (y : EReal) : EReal := if y = one then 1 else 0
def nonrel (y : EReal) : EReal := if y = one then 0 else 1

/-- One ordered pair's contribution: the rectified score difference, kept when `j` is relevant and `k` is not. -/
def pair (pj pk yj yk : EReal) : EReal := max (pk - pj) 0 * rel yj * nonrel yk

/-- What one 128 × 128 tile of pairs adds to row `r` of a block of 32 rows: `pj`, `yj` are the tile's columns on the
    `j` side, `pk`, `yk` those on the `k` side. -/
def tileSum (pj pk yj yk : (⟨2, ![32, 128]⟩ : Shape).Idx → EReal) (r : Fin 32) : EReal :=
  ∑ j : Fin 128, ∑ k : Fin 128, pair (pj (ix2 r j)) (pk (ix2 r k)) (yj (ix2 r j)) (yk (ix2 r k))

/-- Row `i`'s loss: the sum over all ordered pairs of columns. -/
def rowLoss (pred y : (⟨2, ![64, 1024]⟩ : Shape).Idx → EReal) (i : Fin 64) : EReal :=
  ∑ j : Fin 1024, ∑ k : Fin 1024, pair (pred (ix2 i j)) (pred (ix2 i k)) (y (ix2 i j)) (y (ix2 i k))

/-- The result: the rows' losses summed and divided by the value the f32 pattern of 64.0 denotes. -/
def meanLoss (pred y : (⟨2, ![64, 1024]⟩ : Shape).Idx → EReal) : (⟨0, ![]⟩ : Shape).Idx → EReal :=
  fun _ => Ideal.div (∑ i : Fin 64, rowLoss pred y i) (Ideal.ofBits .f32 0x42800000#32)

end Cert.Hinge

end
-- ==== Proof.TilePayload.lean ====
/-
  The kernel body's arithmetic, read at one row of its 32 × 1 result, at the extended reals: the accumulator's row plus the
  sum over the tile's 128 × 128 ordered pairs of the rectified score difference times the two label indicators.
-/
import proofs.«122645_j13649406067127_2_alg».proof.Proof.Gen.KernelIdeal.Skeleton
import proofs.«122645_j13649406067127_2_alg».proof.Proof.Hinge
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Idealize.ShloMosaic Idealize.ShloMosaic.ValueIdx Cert.KernelIdeal Cert.KernelIdeal.Gen

/-! ## The two label indicators -/

/-- "Equals 1.0", widened to 32 bits and converted to a float, is the indicator of a relevant label. -/
theorem rel_read (y : EReal) :
    (FloatOps.sitofp (F := Ideal) .f32
      ((FloatOps.cmpf (F := Ideal) (φ := .f32) .oeq y (Ideal.ofBits .f32 0x3F800000#32)).setWidth 32) : EReal)
      = Cert.Hinge.rel y := by
  unfold Cert.Hinge.rel Cert.Hinge.one
  rw [Ideal.cmpf_def]
  by_cases h : y = Ideal.ofBits .f32 0x3F800000#32
  · have e : Ideal.cmp .oeq y (Ideal.ofBits .f32 0x3F800000#32) = 1#1 := by
      unfold Ideal.cmp; rw [decide_eq_true h]; rfl
    rw [if_pos h, e]
    show (((((1#1 : BitVec 1).setWidth 32).toInt : ℤ) : ℝ) : EReal) = 1
    rw [show ((1#1 : BitVec 1).setWidth 32).toInt = 1 by decide]
    simp
  · have e : Ideal.cmp .oeq y (Ideal.ofBits .f32 0x3F800000#32) = 0#1 := by
      unfold Ideal.cmp; rw [decide_eq_false h]; rfl
    rw [if_neg h, e]
    show (((((0#1 : BitVec 1).setWidth 32).toInt : ℤ) : ℝ) : EReal) = 0
    rw [show ((0#1 : BitVec 1).setWidth 32).toInt = 0 by decide]
    simp

/-- "Differs from 1.0", widened and converted, is the indicator of a non-relevant label. -/
theorem nonrel_read (y : EReal) :
    (FloatOps.sitofp (F := Ideal) .f32
      ((FloatOps.cmpf (F := Ideal) (φ := .f32) .one y (Ideal.ofBits .f32 0x3F800000#32)).setWidth 32) : EReal)
      = Cert.Hinge.nonrel y := by
  unfold Cert.Hinge.nonrel Cert.Hinge.one
  rw [Ideal.cmpf_def]
  by_cases h : y = Ideal.ofBits .f32 0x3F800000#32
  · have e : Ideal.cmp .one y (Ideal.ofBits .f32 0x3F800000#32) = 0#1 := by
      unfold Ideal.cmp; rw [decide_eq_false (not_not.mpr h)]; rfl
    rw [if_pos h, e]
    show (((((0#1 : BitVec 1).setWidth 32).toInt : ℤ) : ℝ) : EReal) = 0
    rw [show ((0#1 : BitVec 1).setWidth 32).toInt = 0 by decide]
    simp
  · have e : Ideal.cmp .one y (Ideal.ofBits .f32 0x3F800000#32) = 1#1 := by
      unfold Ideal.cmp; rw [decide_eq_true (show y ≠ _ from h)]; rfl
    rw [if_neg h, e]
    show (((((1#1 : BitVec 1).setWidth 32).toInt : ℤ) : ℝ) : EReal) = 1
    rw [show ((1#1 : BitVec 1).setWidth 32).toInt = 1 by decide]
    simp

/-! ## The two keepdims layouts, read at a triple -/

section Layout
variable {α : Type}

/-- A 32 × 128 block set along the middle axis (\`x[:, :, None]\`) and broadcast reads its (r, j) entry at (r, j, k). -/
theorem col_read (x : S32x128.Idx → α) (h : S32x128.ShapeCasts S32x128x1) (hb : S32x128x1.Broadcasts S32x128x128)
    (r : Fin 32) (j k : Fin 128) :
    broadcastTo S32x128x128 (shapeCast S32x128x1 x h) hb (ix3 r j k) = x (ix2 r j) := by
  refine (broadcastTo_apply _ hb (ix3 r j k) (ix3 r j (0 : Fin 1)) (fun a => ?_)).trans ?_
  · match a with
    | ⟨0, _⟩ => rfl
    | ⟨1, _⟩ => rfl
    | ⟨2, _⟩ => rfl
  · refine shapeCast_apply x h (ix3 r j (0 : Fin 1)) (ix2 r j) ?_
    rw [Shape.rowMajor_val_two, Shape.rowMajor_val_three]
    show r.val * 128 + j.val = (r.val * 128 + j.val) * 1 + 0
    omega

/-- A 32 × 128 block set along the last axis (\`x[:, None, :]\`) and broadcast reads its (r, k) entry at (r, j, k). -/
theorem row_read (x : S32x128.Idx → α) (h : S32x128.ShapeCasts S32x1x128) (hb : S32x1x128.Broadcasts S32x128x128)
    (r : Fin 32) (j k : Fin 128) :
    broadcastTo S32x128x128 (shapeCast S32x1x128 x h) hb (ix3 r j k) = x (ix2 r k) := by
  refine (broadcastTo_apply _ hb (ix3 r j k) (ix3 r (0 : Fin 1) k) (fun a => ?_)).trans ?_
  · match a with
    | ⟨0, _⟩ => rfl
    | ⟨1, _⟩ => rfl
    | ⟨2, _⟩ => rfl
  · refine shapeCast_apply x h (ix3 r (0 : Fin 1) k) (ix2 r k) ?_
    rw [Shape.rowMajor_val_two, Shape.rowMajor_val_three]
    show r.val * 128 + k.val = (r.val * 1 + 0) * 128 + k.val
    omega

end Layout

/-! ## The payloads -/

/-- The initialising store writes zeros. -/
theorem pay1_apply (i : S32x1.Idx) : Cert.KernelIdeal.Gen.k0_pay1 (F := Ideal) i = 0 := by
  unfold Cert.KernelIdeal.Gen.k0_pay1
  exact Ideal.ofBits_zero_f32

/-! ## The reductions' inserted coordinates -/

/-- Over row \`r\`, inserting \`j\` on the column axis gives (r, j). -/
theorem lift_col (h : S32x128.Reduces [1] S32) (r : Fin 32) (j : Fin 128) : h.lift (ix1 r) j = ix2 r j := by
  funext a
  match a with
  | ⟨0, _⟩ => rfl
  | ⟨1, _⟩ => rfl

/-- Over (r, j), inserting \`k\` on the last axis gives (r, j, k). -/
theorem lift_last (h : S32x128x128.Reduces [2] S32x128) (r : Fin 32) (j k : Fin 128) : h.lift (ix2 r j) k = ix3 r j k := by
  funext a
  match a with
  | ⟨0, _⟩ => rfl
  | ⟨1, _⟩ => rfl
  | ⟨2, _⟩ => rfl

/-- The accumulating store writes the accumulator's row plus the tile's pair sum of that row. -/
theorem pay2_apply (x0 x1 x2 x3 : Vec Ideal S32x128 .f32) (acc : Vec Ideal S32x1 .f32) (r : Fin 32) :
    Cert.KernelIdeal.Gen.k0_pay2 (F := Ideal) x0 x1 x2 x3 acc (ix2 r (0 : Fin 1))
      = acc (ix2 r (0 : Fin 1)) + Cert.Hinge.tileSum x0 x1 x2 x3 r := by
  unfold Cert.KernelIdeal.Gen.k0_pay2
  refine (addf_apply _ _ _).trans ?_
  refine congr (congrArg _ ?_) ?_
  · exact shapeCast_apply _ _ _ _ rfl
  · refine (shapeCast_apply _ _ (ix2 r (0 : Fin 1)) (ix1 r) ?_).trans ?_
    · rw [Shape.rowMajor_val_one, Shape.rowMajor_val_two]
      show r.val = r.val * 1 + 0
      omega
    refine (Ideal.multiReduction_add_single _ _ _ _ _ (ix1 r)).trans ?_
    unfold Cert.Hinge.tileSum
    refine Finset.sum_congr rfl (fun (j : Fin 128) _ => ?_)
    refine (congrArg _ (lift_col _ r j)).trans ?_
    refine (Ideal.multiReduction_add_single _ _ _ _ _ (ix2 r j)).trans ?_
    refine Finset.sum_congr rfl (fun (k : Fin 128) _ => ?_)
    refine (congrArg _ (lift_last _ r j k)).trans ?_
    simp only [mulf_apply, maximumf_apply, subf_apply, broadcast_apply, col_read, row_read, sitofp_apply, extui_apply,
      cmpf_apply]
    show max (x1 (ix2 r k) - x0 (ix2 r j)) (Ideal.ofBits .f32 0x00000000#32)
        * FloatOps.sitofp (F := Ideal) .f32
            ((FloatOps.cmpf (F := Ideal) (φ := .f32) .oeq (x2 (ix2 r j)) (Ideal.ofBits .f32 0x3F800000#32)).setWidth 32)
        * FloatOps.sitofp (F := Ideal) .f32
            ((FloatOps.cmpf (F := Ideal) (φ := .f32) .one (x3 (ix2 r k)) (Ideal.ofBits .f32 0x3F800000#32)).setWidth 32)
      = _
    rw [rel_read, nonrel_read, Ideal.ofBits_zero_f32]
    rfl

end Cert.KernelIdeal.TileValue

end
-- ==== Proof.LibTileSums.lean ====
/-
  Sums over a range of length a * b, regrouped.

  A number below \`a * b\` is uniquely \`i * b + j\` with \`i\` below \`a\` and \`j\` below \`b\`, so a sum over the first \`a * b\`
  naturals is the double sum over the quotient and the remainder (\`sum_range_mul\`). Two such regroupings at once: when the
  pairs (j, k) below \`nj * tj\` and \`nk * tk\` are cut into \`nj * nk\` tiles of \`tj × tk\` pairs, the tiles numbered row-major
  (tile \`u\` has row \`u / nk\` and column \`u % nk\`), summing each tile's pairs and then the tiles gives the sum over all pairs
  (\`sum_tiles\`). Both hold in every commutative additive monoid.
-/
import Mathlib.Algebra.BigOperators.Group.Finset.Basic
import Mathlib.Algebra.BigOperators.Group.Finset.Sigma

namespace Cert.Lib.TileSums

open scoped BigOperators

variable {M : Type*} [AddCommMonoid M]

/-- A sum over the first \`a * b\` naturals, by quotient and remainder modulo \`b\`. -/
theorem sum_range_mul (a b : ℕ) (g : ℕ → M) :
    ∑ u ∈ Finset.range (a * b), g u = ∑ i ∈ Finset.range a, ∑ j ∈ Finset.range b, g (i * b + j) := by
  induction a with
  | zero => rw [Nat.zero_mul, Finset.range_zero, Finset.sum_empty, Finset.sum_empty]
  | succ a ih => rw [Nat.succ_mul, Finset.sum_range_add, Finset.sum_range_succ, ih]

/-- The tiles of a grid of \`nj × nk\` tiles, each of \`tj × tk\` pairs, numbered row-major, together hold every pair below
    \`nj * tj\` and \`nk * tk\` once. -/
theorem sum_tiles (nj nk tj tk : ℕ) (hk : 0 < nk) (f : ℕ → ℕ → M) :
    ∑ u ∈ Finset.range (nj * nk), ∑ jj ∈ Finset.range tj, ∑ kk ∈ Finset.range tk,
        f ((u / nk) * tj + jj) ((u % nk) * tk + kk)
      = ∑ j ∈ Finset.range (nj * tj), ∑ k ∈ Finset.range (nk * tk), f j k := by
  rw [sum_range_mul nj nk, sum_range_mul nj tj]
  refine Finset.sum_congr rfl (fun j0 _ => ?_)
  have e : ∀ k0 ∈ Finset.range nk,
      (∑ jj ∈ Finset.range tj, ∑ kk ∈ Finset.range tk,
          f (((j0 * nk + k0) / nk) * tj + jj) (((j0 * nk + k0) % nk) * tk + kk))
        = ∑ jj ∈ Finset.range tj, ∑ kk ∈ Finset.range tk, f (j0 * tj + jj) (k0 * tk + kk) := by
    intro k0 hk0
    have hlt : k0 < nk := Finset.mem_range.1 hk0
    have h1 : (j0 * nk + k0) / nk = j0 := by
      rw [Nat.add_comm, Nat.add_mul_div_right _ _ hk, Nat.div_eq_of_lt hlt, Nat.zero_add]
    have h2 : (j0 * nk + k0) % nk = k0 := by
      rw [Nat.add_comm, Nat.add_mul_mod_self_right, Nat.mod_eq_of_lt hlt]
    rw [h1, h2]
  rw [Finset.sum_congr rfl e, Finset.sum_comm]
  refine Finset.sum_congr rfl (fun jj _ => ?_)
  exact (sum_range_mul nk tk (fun k => f (j0 * tj + jj) k)).symm

end Cert.Lib.TileSums
-- ==== Proof.RowSumsIdeal.lean ====
/-
  What the row sums' array ends holding, over the extended reals.

  Row block q (rows 32q … 32q+31) is handled by the 64 consecutive points 64q … 64q+63, point 64q + u handling the tile of
  column pairs (u / 8, u % 8). On the first tile the accumulator starts from zero, on every later one it continues, so after
  point 64q + u the accumulator's row r holds the sum of the first u + 1 tiles' contributions to row 32q + r; after the last
  tile that is every ordered pair of columns, each counted once: the row's loss. The accumulator is written back exactly
  then, into rows 32q … 32q+31 of the [64, 1] array, and the two write-backs cover the array.
-/
import proofs.«122645_j13649406067127_2_alg».proof.Proof.TileLaunchIdeal
import proofs.«122645_j13649406067127_2_alg».proof.Proof.TilePayload
import proofs.«122645_j13649406067127_2_alg».proof.Proof.LibTileSums
import proofs.«122645_j13649406067127_2_alg».proof.Proof.Hinge
import Idealize.ShloMosaic.Lib.Pipeline.Value
import Idealize.ShloMosaic.Lib.Tactic

set_option maxRecDepth 16384

noncomputable section

namespace Cert.KernelIdeal.Tile

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A later tile leaves the body's sum payload of the four input tiles and the accumulator it found. -/
theorem outLater_eq (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : ¬isFirst i)
    (x0 x1 x2 x3 : Vec F S32x128 .f32) (acc : Vec F S32x1 .f32) :
    outLater c i a3 h3 a4 h4 a5 h5 a6 h6 a7 h7 hc x0 x1 x2 x3 acc = k0_pay2 x0 x1 x2 x3 acc := by
  unfold outLater
  rw [View.read_writes_eq_canon _ _ _ (coverLater c i a3 h3 a4 h4 a5 h5 a6 h6 a7 h7 hc x0 x1 x2 x3 acc)]
  unfold runLater
  dsimp only
  sl_unfold_words
  rw [View.canon_unit_zero hz]
  simp only [View.readAt_eq_ld, h3.read_unread, h4.read_unread, h5.read_unread, h6.read_unread, h7.read_unread,
    View.ld_unit_zero (S := S32x128) hz, View.ld_unit_zero (S := S32x1) hz]

/-- A first tile leaves the same payload over the zero block it has just stored. -/
theorem outFirst_eq (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S32x1 .f32) (h7 : a7.IsWhole) (hc : isFirst i)
    (x0 x1 x2 x3 : Vec F S32x128 .f32) :
    outFirst c i a3 h3 a4 h4 a5 h5 a6 h6 a7 h7 hc x0 x1 x2 x3 = k0_pay2 x0 x1 x2 x3 (k0_pay1 (F := F)) := by
  unfold outFirst
  rw [View.read_writes_eq_canon _ _ _ (coverFirst c i a3 h3 a4 h4 a5 h5 a6 h6 a7 h7 hc x0 x1 x2 x3)]
  unfold runFirst
  dsimp only
  sl_unfold_words
  rw [View.canon_cons_unit_zero (S := S32x1) hz, View.readCov_unit_zero (S := S32x1) _ hz]
  simp only [View.readAt_eq_ld, h3.read_unread, h4.read_unread, h5.read_unread, h6.read_unread,
    View.ld_unit_zero (S := S32x128) hz, View.ld_unit_zero (S := S32x1) hz]

/-! ## Entries and pairs by natural-number coordinates -/

/-- Entry (a, b) of a [64, 1024] array, by natural-number coordinates (zero outside the array). -/
def atN (A : (⟨2, ![64, 1024]⟩ : Shape).Idx → EReal) (a b : ℕ) : EReal :=
  if h : a < 64 ∧ b < 1024 then A (ix2 ⟨a, h.1⟩ ⟨b, h.2⟩) else 0

/-- The ordered pair (j, k) of row `a`. -/
def pairN (P Y : (⟨2, ![64, 1024]⟩ : Shape).Idx → EReal) (a j k : ℕ) : EReal :=
  Cert.Hinge.pair (atN P a j) (atN P a k) (atN Y a j) (atN Y a k)

/-- Tile (j0, k0)'s contribution to row `a`. -/
def tileN (P Y : (⟨2, ![64, 1024]⟩ : Shape).Idx → EReal) (a j0 k0 : ℕ) : EReal :=
  ∑ jj ∈ Finset.range 128, ∑ kk ∈ Finset.range 128, pairN P Y a (j0 * 128 + jj) (k0 * 128 + kk)

/-- All pairs of row `a` are its loss. -/
theorem row_total (P Y : (⟨2, ![64, 1024]⟩ : Shape).Idx → EReal) (a : Fin 64) :
    ∑ j ∈ Finset.range 1024, ∑ k ∈ Finset.range 1024, pairN P Y a.val j k = Cert.Hinge.rowLoss P Y a := by
  unfold Cert.Hinge.rowLoss
  rw [Finset.sum_range]
  refine Finset.sum_congr rfl fun j _ => ?_
  rw [Finset.sum_range]
  refine Finset.sum_congr rfl fun k _ => ?_
  unfold pairN atN
  simp only [dif_pos (show a.val < 64 ∧ j.val < 1024 from ⟨a.isLt, j.isLt⟩), dif_pos (show a.val < 64 ∧ k.val < 1024 from ⟨a.isLt, k.isLt⟩)]
  try rfl

/-- The 64 tiles of a row block together are all pairs. -/
theorem tiles_total (P Y : (⟨2, ![64, 1024]⟩ : Shape).Idx → EReal) (a : Fin 64) :
    ∑ u ∈ Finset.range 64, tileN P Y a.val (u / 8) (u % 8) = Cert.Hinge.rowLoss P Y a := by
  rw [← row_total]
  exact Cert.Lib.TileSums.sum_tiles 8 8 128 128 (by decide) (fun j k => pairN P Y a.val j k)

/-! ## The windows' blocks, read at an entry -/

section AtIdeal

variable (m : (ℓ : Loc nD τ sig) → Buf (Elt Ideal) ℓ) (ρ : Dev nD → PrngReg)

/-- The printed index maps over the 128 points: the row block is t / 64, the j-side tile (t % 64) / 8, the k-side tile t % 8. -/
theorem idx_facts : ∀ t : Fin cfg0.N,
    win0_0.index t (0 : Fin 2) = t.val / 64 ∧ win0_0.index t (1 : Fin 2) = t.val % 64 / 8
    ∧ win0_1.index t (0 : Fin 2) = t.val / 64 ∧ win0_1.index t (1 : Fin 2) = t.val % 8
    ∧ win0_2.index t (0 : Fin 2) = t.val / 64 ∧ win0_2.index t (1 : Fin 2) = t.val % 64 / 8
    ∧ win0_3.index t (0 : Fin 2) = t.val / 64 ∧ win0_3.index t (1 : Fin 2) = t.val % 8
    ∧ win0_4.index t (0 : Fin 2) = t.val / 64 ∧ win0_4.index t (1 : Fin 2) = 0 :=
  (by decide +kernel : ∀ t : Fin grid0.N, _)

theorem iblk0_apply (c : Dev nD) (t : Fin cfg0.N) (r : Fin 32) (jj : Fin 128) :
    iblk m c 0 t (ix2 r jj) = atN (V m c main_arg0) (32 * (t.val / 64) + r.val) (t.val % 64 / 8 * 128 + jj.val) := by
  have hN : t.val < 128 := lt_of_lt_of_eq t.isLt N_0
  have hr := r.isLt; have hj := jj.isLt
  obtain ⟨e0, e1, -⟩ := idx_facts t
  unfold atN
  rw [dif_pos ⟨by omega, by omega⟩]
  show V m c main_arg0 (((cfg0.win 0).blk t).view.emb (ix2 r jj)) = V m c main_arg0 _
  congr 1
  funext a; apply Fin.ext
  match a with
  | ⟨0, _⟩ => show win0_0.index t (0 : Fin 2) * 32 + 1 * r.val = 32 * (t.val / 64) + r.val; omega
  | ⟨1, _⟩ => show win0_0.index t (1 : Fin 2) * 128 + 1 * jj.val = t.val % 64 / 8 * 128 + jj.val; omega

theorem iblk1_apply (c : Dev nD) (t : Fin cfg0.N) (r : Fin 32) (kk : Fin 128) :
    iblk m c 1 t (ix2 r kk) = atN (V m c main_arg0) (32 * (t.val / 64) + r.val) (t.val % 8 * 128 + kk.val) := by
  have hN : t.val < 128 := lt_of_lt_of_eq t.isLt N_0
  have hr := r.isLt; have hj := kk.isLt
  obtain ⟨-, -, e0, e1, -⟩ := idx_facts t
  unfold atN
  rw [dif_pos ⟨by omega, by omega⟩]
  show V m c main_arg0 (((cfg0.win 1).blk t).view.emb (ix2 r kk)) = V m c main_arg0 _
  congr 1
  funext a; apply Fin.ext
  match a with
  | ⟨0, _⟩ => show win0_1.index t (0 : Fin 2) * 32 + 1 * r.val = 32 * (t.val / 64) + r.val; omega
  | ⟨1, _⟩ => show win0_1.index t (1 : Fin 2) * 128 + 1 * kk.val = t.val % 8 * 128 + kk.val; omega

theorem iblk2_apply (c : Dev nD) (t : Fin cfg0.N) (r : Fin 32) (jj : Fin 128) :
    iblk m c 2 t (ix2 r jj) = atN (V m c main_arg1) (32 * (t.val / 64) + r.val) (t.val % 64 / 8 * 128 + jj.val) := by
  have hN : t.val < 128 := lt_of_lt_of_eq t.isLt N_0
  have hr := r.isLt; have hj := jj.isLt
  obtain ⟨-, -, -, -, e0, e1, -⟩ := idx_facts t
  unfold atN
  rw [dif_pos ⟨by omega, by omega⟩]
  show V m c main_arg1 (((cfg0.win 2).blk t).view.emb (ix2 r jj)) = V m c main_arg1 _
  congr 1
  funext a; apply Fin.ext
  match a with
  | ⟨0, _⟩ => show win0_2.index t (0 : Fin 2) * 32 + 1 * r.val = 32 * (t.val / 64) + r.val; omega
  | ⟨1, _⟩ => show win0_2.index t (1 : Fin 2) * 128 + 1 * jj.val = t.val % 64 / 8 * 128 + jj.val; omega

theorem iblk3_apply (c : Dev nD) (t : Fin cfg0.N) (r : Fin 32) (kk : Fin 128) :
    iblk m c 3 t (ix2 r kk) = atN (V m c main_arg1) (32 * (t.val / 64) + r.val) (t.val % 8 * 128 + kk.val) := by
  have hN : t.val < 128 := lt_of_lt_of_eq t.isLt N_0
  have hr := r.isLt; have hj := kk.isLt
  obtain ⟨-, -, -, -, -, -, e0, e1, -⟩ := idx_facts t
  unfold atN
  rw [dif_pos ⟨by omega, by omega⟩]
  show V m c main_arg1 (((cfg0.win 3).blk t).view.emb (ix2 r kk)) = V m c main_arg1 _
  congr 1
  funext a; apply Fin.ext
  match a with
  | ⟨0, _⟩ => show win0_3.index t (0 : Fin 2) * 32 + 1 * r.val = 32 * (t.val / 64) + r.val; omega
  | ⟨1, _⟩ => show win0_3.index t (1 : Fin 2) * 128 + 1 * kk.val = t.val % 8 * 128 + kk.val; omega

/-- The four blocks at point `t` are tile ((t % 64) / 8, t % 8) of rows 32 (t / 64) …: their tile sum at row `r`. -/
theorem tile_at (c : Dev nD) (t : Fin cfg0.N) (r : Fin 32) :
    Cert.Hinge.tileSum (iblk m c 0 t) (iblk m c 1 t) (iblk m c 2 t) (iblk m c 3 t) r
      = tileN (V m c main_arg0) (V m c main_arg1) (32 * (t.val / 64) + r.val) (t.val % 64 / 8) (t.val % 8) := by
  unfold Cert.Hinge.tileSum tileN
  rw [Finset.sum_range]
  refine Finset.sum_congr rfl fun jj _ => ?_
  rw [Finset.sum_range]
  refine Finset.sum_congr rfl fun kk _ => ?_
  unfold pairN
  rw [iblk0_apply, iblk1_apply, iblk2_apply, iblk3_apply]

end AtIdeal

end Cert.KernelIdeal.Tile

end
-- ==== Proof.RowMean.lean ====
/-
  The host's tail of the kernel's program, read at the extended reals: when row \`i\` of the 64 × 1 array holds row \`i\`'s
  loss, the sum over the whole array divided by the value of the f32 pattern of 64.0 is the mean loss.
-/
import proofs.«122645_j13649406067127_2_alg».proof.Proof.Gen.KernelIdeal
import proofs.«122645_j13649406067127_2_alg».proof.Proof.Hinge
import Idealize.ShloMosaic.Lib.ValueIdx
import Idealize.ShloMosaic.PureOps.Ideal.Laws

noncomputable section

namespace Cert.KernelIdeal.TileValue

open Idealize.ShloMosaic Idealize.ShloMosaic.ValueIdx Cert.KernelIdeal Cert.KernelIdeal.Gen

/-- The sum of a 64 × 1 array over both axes, divided by 64.0, is the mean of its rows; whatever the proofs of the two
    shape facts the sum is stated with. -/
theorem mean_of_rows_of (h : S64x1.ReducesTo [0, 1] S_) (hS : 0 < S_.numel)
    (pred y : (⟨2, ![64, 1024]⟩ : Shape).Idx → EReal) (G : (⟨S64x1, .f32⟩ : BufTy).Contents (Elt Ideal))
    (hG : ∀ i : Fin 64, G (ix2 i (0 : Fin 1)) = Cert.Hinge.rowLoss pred y i) :
    Host.divf (F := Ideal)
        (Host.reduceAdd (F := Ideal) G (constant (F := Ideal) S_ .f32 0x00000000#32) h hS)
        (constant (F := Ideal) S_ .f32 0x42800000#32)
      = Cert.Hinge.meanLoss pred y := by
  funext i0
  unfold Cert.Hinge.meanLoss
  show Ideal.div
      (Host.reduceAdd (F := Ideal) G (constant (F := Ideal) S_ .f32 0x00000000#32) h hS i0)
      (Ideal.ofBits .f32 0x42800000#32) = Ideal.div _ _
  refine congrArg (fun s => Ideal.div s (Ideal.ofBits .f32 0x42800000#32)) ?_
  simp only [Host.reduceAdd, Ideal.hostReduceAdd_def]
  refine (Ideal.hostReduceAdd_total h (fun b => b.elim0) G _ i0).trans ?_
  rw [constant_apply, Ideal.ofBits_zero_f32, zero_add, sum_idx2]
  refine Finset.sum_congr rfl (fun (i : Fin 64) _ => ?_)
  rw [Fin.sum_univ_one]
  exact hG i

/-- The same at the two shape facts as the generated module proves them. -/
theorem mean_of_rows (pred y : (⟨2, ![64, 1024]⟩ : Shape).Idx → EReal) (G : (⟨S64x1, .f32⟩ : BufTy).Contents (Elt Ideal))
    (hG : ∀ i : Fin 64, G (ix2 i (0 : Fin 1)) = Cert.Hinge.rowLoss pred y i) :
    Host.divf (F := Ideal)
        (Host.reduceAdd (F := Ideal) G (constant (F := Ideal) S_ .f32 0x00000000#32) reducesTo_S64x1_S_d0_1 h_S_)
        (constant (F := Ideal) S_ .f32 0x42800000#32)
      = Cert.Hinge.meanLoss pred y :=
  mean_of_rows_of reducesTo_S64x1_S_d0_1 h_S_ pred y G hG

/-- The same at the shape facts the printed program cites (the fields of its side-condition class). -/
theorem mean_of_rows_printed (pred y : (⟨2, ![64, 1024]⟩ : Shape).Idx → EReal)
    (G : (⟨S64x1, .f32⟩ : BufTy).Contents (Elt Ideal))
    (hG : ∀ i : Fin 64, G (ix2 i (0 : Fin 1)) = Cert.Hinge.rowLoss pred y i) :
    Host.divf (F := Ideal)
        (Host.reduceAdd (F := Ideal) G (constant (F := Ideal) S_ .f32 0x00000000#32)
          Facts₀.reducesTo_S64x1_S_d0_1 Facts₀.h_S_)
        (constant (F := Ideal) S_ .f32 0x42800000#32)
      = Cert.Hinge.meanLoss pred y :=
  mean_of_rows_of _ _ pred y G hG

end Cert.KernelIdeal.TileValue

end
-- ==== Proof.KernelLossIdeal.lean ====
/-
  The kernel's result over the extended reals: the mean of the rows' losses.

  By induction on the point, the accumulator's row r after point n holds the first n % 64 + 1 tiles' contributions to row
  32 (n / 64) + r. At the last tile of a row block that is the row's loss, and that is when the block is written back: the
  [64, 1] array ends with row i at row i's loss. The four host lines then sum the rows and divide by 64.
-/
import proofs.«122645_j13649406067127_2_alg».proof.Proof.RowSumsIdeal
import proofs.«122645_j13649406067127_2_alg».proof.Proof.RowMean
import Idealize.ShloMosaic.Lib.StableHlo.Run

set_option maxRecDepth 16384

noncomputable section

namespace Cert.KernelIdeal.Tile

open Cert.KernelIdeal Cert.KernelIdeal.Gen Cert.Lib.SharedArrays Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- On the first tile of a row block the accumulator's row `r` is that tile's contribution. -/
theorem acc_first (c : Dev nD) (t : Fin cfg0.N) (h0 : t.val % 64 = 0) (r : Fin 32) :
    accAt m c t.val t.isLt (ix2 r (0 : Fin 1))
      = tileN (V m c main_arg0) (V m c main_arg1) (32 * (t.val / 64) + r.val) (t.val % 64 / 8) (t.val % 8) := by
  rw [accAt_first m c t h0, outFirst_eq]
  refine (Cert.KernelIdeal.TileValue.pay2_apply _ _ _ _ _ r).trans ?_
  rw [Cert.KernelIdeal.TileValue.pay1_apply, zero_add]
  exact tile_at m c t r

/-- On a later tile it is what the point before left plus the tile's contribution. -/
theorem acc_later (c : Dev nD) (t : Fin cfg0.N) (h0 : ¬t.val % 64 = 0) (r : Fin 32) :
    accAt m c t.val t.isLt (ix2 r (0 : Fin 1))
      = accAt m c (t.val - 1) (Nat.lt_of_le_of_lt (Nat.sub_le _ _) t.isLt) (ix2 r (0 : Fin 1))
        + tileN (V m c main_arg0) (V m c main_arg1) (32 * (t.val / 64) + r.val) (t.val % 64 / 8) (t.val % 8) := by
  rw [accAt_later m c t h0, outLater_eq]
  refine (Cert.KernelIdeal.TileValue.pay2_apply _ _ _ _ _ r).trans ?_
  rw [tile_at]

/-- THE RUNNING SUM: after point `n` the accumulator's row `r` holds the contributions of the row block's first
    `n % 64 + 1` tiles to row `32 (n / 64) + r`. -/
theorem accAt_eq (c : Dev nD) : ∀ (n : ℕ) (h : n < cfg0.N) (r : Fin 32),
    accAt m c n h (ix2 r (0 : Fin 1))
      = ∑ u ∈ Finset.range (n % 64 + 1), tileN (V m c main_arg0) (V m c main_arg1) (32 * (n / 64) + r.val) (u / 8) (u % 8)
  | 0, h, r => by
    rw [acc_first m c ⟨0, h⟩ rfl r]
    show tileN _ _ (32 * (0 / 64) + r.val) (0 % 64 / 8) (0 % 8) = ∑ u ∈ Finset.range (0 % 64 + 1), _
    rw [show (0 % 64 + 1 : ℕ) = 1 from rfl, Finset.sum_range_one]
  | n + 1, h, r => by
    by_cases h0 : (n + 1) % 64 = 0
    · rw [acc_first m c ⟨n + 1, h⟩ h0 r]
      show tileN _ _ (32 * ((n + 1) / 64) + r.val) ((n + 1) % 64 / 8) ((n + 1) % 8) = _
      have h8 : (n + 1) % 8 = 0 := by omega
      rw [h0, h8, Finset.sum_range_one]
    · rw [acc_later m c ⟨n + 1, h⟩ h0 r]
      show accAt m c n _ (ix2 r (0 : Fin 1)) + tileN _ _ (32 * ((n + 1) / 64) + r.val) ((n + 1) % 64 / 8) ((n + 1) % 8) = _
      rw [accAt_eq c n _ r]
      have e1 : (n + 1) % 64 = n % 64 + 1 := by omega
      have e2 : (n + 1) / 64 = n / 64 := by omega
      have e3 : (n + 1) % 8 = (n % 64 + 1) % 8 := by omega
      rw [e1, e2, e3]
      exact (Finset.sum_range_succ (fun u => tileN (V m c main_arg0) (V m c main_arg1) (32 * (n / 64) + r.val) (u / 8) (u % 8)) (n % 64 + 1)).symm

/-! ## The array after the run -/

/-- The whole-array function: row `i` holds row `i`'s loss. -/
def rowsG (c : Dev nD) : Buf (Elt Ideal) ((c : Thread nD τ).loc main_v0) :=
  fun i => Cert.Hinge.rowLoss (V m c main_arg0) (V m c main_arg1) (i 0)

/-- What a write-back writes is its block of that function: it happens after the last tile of a row block. -/
theorem flushed_eq (c : Dev nD) (t : Fin cfg0.N) (hf : (cfg0.win 4).flush t = true) :
    (dats m 0 c).flushed 4 t = ((cfg0.win 4).blk t).view.read (Elt Ideal) (rowsG m c) := by
  have hN : t.val < 128 := lt_of_lt_of_eq t.isLt N_0
  have h63 : t.val % 64 = 63 := (flush0_4 t).mp hf
  obtain ⟨-, -, -, -, -, -, -, -, e0, e1⟩ := idx_facts t
  show (cfg0.win 4).cut (grid0.coords t) ((dats m 0 c).after 4 t) = _
  rw [after_4]
  funext j
  obtain ⟨r, z, rfl⟩ : ∃ (r : Fin 32) (z : Fin 1), j = ix2 r z := ⟨j 0, j 1, eq_ix2 j⟩
  obtain rfl : z = 0 := Subsingleton.elim _ _
  have hr := r.isLt
  have ha : 32 * (t.val / 64) + r.val < 64 := by omega
  show accAt m c t.val t.isLt (ix2 r (0 : Fin 1)) = rowsG m c (((cfg0.win 4).blk t).view.emb (ix2 r (0 : Fin 1)))
  rw [accAt_eq m c t.val t.isLt r, h63]
  refine (tiles_total (V m c main_arg0) (V m c main_arg1) ⟨32 * (t.val / 64) + r.val, ha⟩).trans ?_
  unfold rowsG
  congr 1
  apply Fin.ext
  show 32 * (t.val / 64) + r.val = win0_4.index t (0 : Fin 2) * 32 + 1 * r.val
  omega

/-- An index of the [64, 1] array is in point `t`'s block iff each coordinate is in the block's range. -/
theorem mem_blk4 (t : Fin cfg0.N) (i : S64x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v0).slice (win0_4.rect t)).set ↔ _
  rw [View.set_slice_whole, Rect.mem_set_unit]
  exact Iff.rfl

/-- The two write-backs cover the array: row `i` is written after the last tile of row block `i / 32`. -/
theorem final_rows (c : Dev nD) : (dats m 0 c).arrAt 4 cfg0.N = rowsG m c :=
  (dats m 0 c).arrAt_eq_of_cover 4 (rowsG m c) (flushed_eq m c) fun (i : S64x1.Idx) => by
    have hi0 : (i 0).val < 64 := (i 0).isLt
    have hi1 : (i 1).val < 1 := (i 1).isLt
    have hN : cfg0.N = 128 := N_0
    have ht : 64 * ((i 0).val / 32) + 63 < cfg0.N := by omega
    obtain ⟨-, -, -, -, -, -, -, -, e0, e1⟩ := idx_facts ⟨64 * ((i 0).val / 32) + 63, ht⟩
    refine ⟨⟨64 * ((i 0).val / 32) + 63, ht⟩, (flush0_4 _).mpr (by show (64 * ((i 0).val / 32) + 63) % 64 = 63; omega), ?_⟩
    rw [mem_blk4]
    intro a
    match a with
    | ⟨0, _⟩ =>
      show win0_4.index ⟨64 * ((i 0).val / 32) + 63, ht⟩ (0 : Fin 2) * 32 ≤ (i 0).val ∧ (i 0).val < win0_4.index ⟨64 * ((i 0).val / 32) + 63, ht⟩ (0 : Fin 2) * 32 + 32
      rw [e0]; show (64 * ((i 0).val / 32) + 63) / 64 * 32 ≤ (i 0).val ∧ (i 0).val < (64 * ((i 0).val / 32) + 63) / 64 * 32 + 32
      omega
    | ⟨1, _⟩ =>
      show win0_4.index ⟨64 * ((i 0).val / 32) + 63, ht⟩ (1 : Fin 2) * 1 ≤ (i 1).val ∧ (i 1).val < win0_4.index ⟨64 * ((i 0).val / 32) + 63, ht⟩ (1 : Fin 2) * 1 + 1
      rw [e1]; omega

/-! ## The result -/

theorem main_v2_rest : main_v2 ∈ Pipeline.restRefs sig spec0 := Pipeline.mem_restRefs_of main_v2 rfl (by decide)

/-- The four host lines, run from the exit contents, leave the mean of the rows' losses in the result's buffer. -/
theorem tail_value (c : Dev nD) :
    StableHlo.after ([hostOps1] : List (List (HloOp τ sig (Elt Ideal)))).flatten (VN m c) (Proc.devRef .tc main_v2)
      = Cert.Hinge.meanLoss (V m c main_arg0) (V m c main_arg1) := by
  show StableHlo.after hostOps1 (VN m c) (Proc.devRef .tc main_v2) = _
  after_results
  rw [VN_rows, final_rows]
  exact Cert.KernelIdeal.TileValue.mean_of_rows_of _ _ _ _ _ (fun i => rfl)

/-- THE KERNEL'S RUN, READ: every weakly fair execution of @main terminates with the result's buffer at the mean of the
    rows' losses of the argument arrays, and the arguments as launched. -/
theorem run_value : θ_run defs (onTc (τ := τ) (main (F := Ideal))) ⟨m, fun _ => 0, ρ⟩ fun r => ∀ c : Dev nD,
      r.2.mem ((c.tc : Thread nD τ).loc main_v2)
        = Cert.Hinge.meanLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v2 main_v2_rest).trans (tail_value m c),
      ((h c).1 0).trans ((dats m 0 c).arrAt_in 0 rfl _), ((h c).1 2).trans ((dats m 0 c).arrAt_in 2 rfl _)⟩)
    (run_main m ρ)

end Cert.KernelIdeal.Tile

end
-- ==== Proof.RefLoss.lean ====
/-
  The reference program's result, read at the extended reals: the mean over the 64 rows of each row's sum, over all
  ordered pairs of columns, of the rectified score difference kept when the first column is relevant and the second is not.
-/
import proofs.«122645_j13649406067127_2_alg».proof.Proof.Gen.ReferenceIdeal.Read
import proofs.«122645_j13649406067127_2_alg».proof.Proof.Hinge
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read

/-! ## One pair -/

/-- Selecting the rectified difference where the first label is 1.0 and the second is not, and zero elsewhere, is the
    product with the two indicators: \`x * 1 = x\` and \`x * 0 = 0\` for every extended real. -/
theorem select_pair (pj pk yj yk : EReal) :
    Scalar.select
        (IntOp.andi (Ideal.cmp .oeq yj (Ideal.ofBits .f32 0x3F800000#32))
          (~~~ Ideal.cmp .oeq yk (Ideal.ofBits .f32 0x3F800000#32)))
        (max (pk - pj) (Ideal.ofBits .f32 0x00000000#32)) (Ideal.ofBits .f32 0x00000000#32)
      = Cert.Hinge.pair pj pk yj yk := by
  unfold Cert.Hinge.pair Cert.Hinge.rel Cert.Hinge.nonrel Cert.Hinge.one
  rw [Ideal.ofBits_zero_f32]
  by_cases hj : yj = Ideal.ofBits .f32 0x3F800000#32
  · have ej : Ideal.cmp .oeq yj (Ideal.ofBits .f32 0x3F800000#32) = 1#1 := by
      unfold Ideal.cmp; rw [decide_eq_true hj]; rfl
    by_cases hk : yk = Ideal.ofBits .f32 0x3F800000#32
    · have ek : Ideal.cmp .oeq yk (Ideal.ofBits .f32 0x3F800000#32) = 1#1 := by
        unfold Ideal.cmp; rw [decide_eq_true hk]; rfl
      rw [ej, ek, if_pos hj, if_pos hk, show IntOp.andi (1#1) (~~~ (1#1 : BitVec 1)) = 0#1 by decide, select_zero,
        mul_one, mul_zero]
    · have ek : Ideal.cmp .oeq yk (Ideal.ofBits .f32 0x3F800000#32) = 0#1 := by
        unfold Ideal.cmp; rw [decide_eq_false hk]; rfl
      rw [ej, ek, if_pos hj, if_neg hk, show IntOp.andi (1#1) (~~~ (0#1 : BitVec 1)) = 1#1 by decide, select_one,
        mul_one, mul_one]
  · have ej : Ideal.cmp .oeq yj (Ideal.ofBits .f32 0x3F800000#32) = 0#1 := by
      unfold Ideal.cmp; rw [decide_eq_false hj]; rfl
    rw [ej, if_neg hj, mul_zero, zero_mul]
    rcases BitVec.eq_zero_or_eq_one (~~~ Ideal.cmp .oeq yk (Ideal.ofBits .f32 0x3F800000#32)) with h | h <;> rw [h]
    · rw [show IntOp.andi (0#1) (0#1 : BitVec 1) = 0#1 by decide, select_zero]
    · rw [show IntOp.andi (0#1) (1#1 : BitVec 1) = 0#1 by decide, select_zero]

/-- The selected value at (i, j, k): columns j and k of row i. -/
theorem v15_apply (pred y : (⟨S64x1024, .f32⟩ : BufTy).Contents (Elt Ideal)) (i : Fin 64) (j k : Fin 1024) :
    val_main_v15 (F := Ideal) pred y (ix3 i j k)
      = Cert.Hinge.pair (pred (ix2 i j)) (pred (ix2 i k)) (y (ix2 i j)) (y (ix2 i k)) := by
  have ej8 : idx_main_v8 (idx_main_v10 (ix3 i j k)) = ix2 i j :=
    funext fun a => by match a with | ⟨0, _⟩ => rfl | ⟨1, _⟩ => rfl
  have ek9 : idx_main_v9 (idx_main_v11 (ix3 i j k)) = ix2 i k :=
    funext fun a => by match a with | ⟨0, _⟩ => rfl | ⟨1, _⟩ => rfl
  have ek3 : idx_main_v3 (idx_main_v5 (ix3 i j k)) = ix2 i k :=
    funext fun a => by match a with | ⟨0, _⟩ => rfl | ⟨1, _⟩ => rfl
  have ej4 : idx_main_v4 (idx_main_v6 (ix3 i j k)) = ix2 i j :=
    funext fun a => by match a with | ⟨0, _⟩ => rfl | ⟨1, _⟩ => rfl
  rw [val_main_v15_apply, val_main_v12_apply, val_main_v10_apply, val_main_v8_apply, val_main_v1_apply, ej8,
    val_main_v11_apply, val_main_v9_apply, val_main_v2_apply, val_main_v1_apply, ek9, val_main_v0_apply,
    val_main_v0_apply, val_main_cst_apply, val_main_v14_apply, val_main_v7_apply, val_main_v5_apply, val_main_v3_apply, ek3,
    val_main_v6_apply, val_main_v4_apply, ej4, val_main_v13_apply, val_main_cst_0_apply, val_main_call0_v1_apply,
    val_main_call0_v0_apply, val_main_cst_1_apply]
  exact select_pair _ _ _ _

/-! ## The sum over the two column axes, and the sum over the rows -/

/-- The host's sum over the two column axes, read at row \`i\`: the indices that keep row \`i\` are the triples (i, j, k),
    one for each pair of columns. -/
theorem rowSum (h : S64x1024x1024.ReducesTo [1, 2] S64) (x : S64x1024x1024.Idx → EReal) (init : EReal) (i : Fin 64) :
    Ideal.hostReduceAdd h x init (ix1 i) = init + ∑ j : Fin 1024, ∑ k : Fin 1024, x (ix3 i j k) := by
  unfold Ideal.hostReduceAdd
  refine congrArg (init + ·) ?_
  rw [← Fintype.sum_prod_type' (f := fun (j k : Fin 1024) => x (ix3 i j k))]
  have key : ∀ a : S64x1024x1024.Idx, h.drop a = ix1 i → ix3 i (a 1) (a 2) = a := fun a ha => by
    have h0 : (a 0).val = i.val := congrArg Fin.val (congrFun ha 0)
    funext c
    match c with
    | ⟨0, _⟩ => exact Fin.ext h0.symm
    | ⟨1, _⟩ => rfl
    | ⟨2, _⟩ => rfl
  refine Finset.sum_nbij' (fun a => (a 1, a 2)) (fun p => ix3 i p.1 p.2) ?_ ?_ ?_ ?_ ?_
  · intro a _; exact Finset.mem_univ _
  · intro p _
    refine Finset.mem_filter.2 ⟨Finset.mem_univ _, ?_⟩
    funext b
    match b with
    | ⟨0, _⟩ => exact Fin.ext rfl
  · intro a ha; exact key a (Finset.mem_filter.1 ha).2
  · intro p _; rfl
  · intro a ha; exact congrArg x (key a (Finset.mem_filter.1 ha).2).symm

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-- Row \`i\` of the two-axis sum: the sum over all ordered pairs of columns of the selected value. -/
theorem v16_apply (pred y : (⟨S64x1024, .f32⟩ : BufTy).Contents (Elt Ideal)) (i : Fin 64) :
    val_main_v16 (F := Ideal) pred y (ix1 i)
      = ∑ j : Fin 1024, ∑ k : Fin 1024, val_main_v15 (F := Ideal) pred y (ix3 i j k) := by
  unfold val_main_v16
  generalize val_main_v15 (F := Ideal) pred y = X
  simp only [Host.reduceAdd, Ideal.hostReduceAdd_def]
  refine (rowSum _ X _ i).trans ?_
  rw [val_main_cst_2_apply]
  show Ideal.ofBits .f32 0x00000000#32 + _ = _
  rw [Ideal.ofBits_zero_f32, zero_add]

/-- The reference's result is the mean loss. -/
theorem ref_eq (pred y : (⟨S64x1024, .f32⟩ : BufTy).Contents (Elt Ideal)) :
    Cert.ReferenceIdeal.Read.val_main_v18 (F := Ideal) pred y = Cert.Hinge.meanLoss pred y := by
  funext i0
  rw [val_main_v18_apply, val_main_v17_apply, val_main_cst_4_apply, val_main_cst_3_apply]
  unfold Cert.Hinge.meanLoss
  show Ideal.div (Ideal.ofBits .f32 0x00000000#32 + ∑ j : S64.Idx, val_main_v16 (F := Ideal) pred y j)
      (Ideal.ofBits .f32 0x42800000#32) = Ideal.div _ _
  rw [Ideal.ofBits_zero_f32, zero_add]
  refine congrArg (fun s => Ideal.div s (Ideal.ofBits .f32 0x42800000#32)) ?_
  refine (sum_idx1 _).trans ?_
  refine Finset.sum_congr rfl (fun (i : Fin 64) _ => ?_)
  rw [v16_apply]
  unfold Cert.Hinge.rowLoss
  refine Finset.sum_congr rfl (fun (j : Fin 1024) _ => ?_)
  refine Finset.sum_congr rfl (fun (k : Fin 1024) _ => ?_)
  exact v15_apply pred y i j k

end Cert.ReferenceIdeal.RefValue

end
-- ==== Proof.lean ====
/-
  The pairwise margin ranking loss: a tiled kernel against its plain reference, over the extended reals.

  For 64 rows of 1024 scores `p` and labels `y`, both programs compute the mean over the rows of
      ∑ j, ∑ k, max (p k - p j) 0 · [y j = 1] · [y k ≠ 1].
  The kernel walks a grid of 2 row blocks × 8 × 8 tiles of column pairs, accumulating each tile's row sums into a 32 × 1
  block that is zeroed on a row block's first tile and written back after its last, multiplying the rectified difference
  by the two indicators; the host then sums the 64 row sums and divides by 64. The reference selects the rectified
  difference where the pair qualifies, sums over both column axes at once, sums the rows and divides by 64. On the
  extended reals a number times the indicator 1 is the number and times the indicator 0 is zero, whatever the number, and
  addition is commutative and associative, so the two results agree on every input: the precondition is not used.

  Both of the kernel's arrays are read through two windows each (the j-side and the k-side tiles), so the two windows on an
  array share it, each holding half of its share; the three frames say that each program runs to the end, faults nowhere
  and leaves its two argument arrays as launched. The idealization rewrote nothing, so its conjunct is trivial.
-/
import proofs.«122645_j13649406067127_2_alg».proof.Defs
import proofs.«122645_j13649406067127_2_alg».proof.Proof.Gen.Kernel
import proofs.«122645_j13649406067127_2_alg».proof.Proof.Gen.KernelIdeal
import proofs.«122645_j13649406067127_2_alg».proof.Proof.Gen.ReferenceIdeal
import proofs.«122645_j13649406067127_2_alg».proof.Proof.Gen.ReferenceIdeal.Run
import proofs.«122645_j13649406067127_2_alg».proof.Proof.Gen.ReferenceIdeal.Read
import proofs.«122645_j13649406067127_2_alg».proof.Proof.Gen.Pre_finite_inputs
import proofs.«122645_j13649406067127_2_alg».proof.Proof.TileLaunchBits
import proofs.«122645_j13649406067127_2_alg».proof.Proof.KernelLossIdeal
import proofs.«122645_j13649406067127_2_alg».proof.Proof.RefLoss

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Tile.frame m ρ

/-- So does the kernel read over the extended reals. -/
theorem frame_kernelIdeal : Cert.frame_KernelIdeal := fun m ρ _ => Cert.KernelIdeal.Tile.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the mean of the rows' losses of the same two arrays. -/
theorem algebraic : Cert.algebraic_KernelIdeal_ReferenceIdeal := by
  intro m ρ m' ρ' _ hagree
  refine ⟨fun c => Cert.Hinge.meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tile.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
